-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128x1024 : Shape := ⟨2, ![128, 1024]⟩
abbrev S1024x512 : Shape := ⟨2, ![1024, 512]⟩
abbrev S512x2048 : Shape := ⟨2, ![512, 2048]⟩
abbrev S2048 : Shape := ⟨1, ![2048]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x2048 .f32) (main_arg5 : FVec F S512x2048 .f32) (main_arg6 : FVec F S2048 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S128x512 .f32) (main_arg1 : FVec F S128x1024 .f32) (main_arg2 : FVec F S1024x512 .f32) (main_arg3 : FVec F S1024x512 .f32) (main_arg4 : FVec F S512x2048 .f32) (main_arg5 : FVec F S512x2048 .f32) (main_arg6 : FVec F S2048 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Kernel.lean ====
abbrev S128x512 : Shape := ⟨2, ![128, 512]⟩
abbrev S128x1024 : Shape := ⟨2, ![128, 1024]⟩
abbrev S1024x512 : Shape := ⟨2, ![1024, 512]⟩
abbrev S512x2048 : Shape := ⟨2, ![512, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩
abbrev S128x2048 : Shape := ⟨2, ![128, 2048]⟩
abbrev S128x128 : Shape := ⟨2, ![128, 128]⟩
abbrev S32x512 : Shape := ⟨2, ![32, 512]⟩
abbrev S32x128 : Shape := ⟨2, ![32, 128]⟩
abbrev S32x1x512 : Shape := ⟨3, ![32, 1, 512]⟩
abbrev S1x128x512 : Shape := ⟨3, ![1, 128, 512]⟩
abbrev S32x128x512 : Shape := ⟨3, ![32, 128, 512]⟩
abbrev S32x128x1 : Shape := ⟨3, ![32, 128, 1]⟩

abbrev nBuf : Space → Nat
  | .hbm => 18
  | .vmem => 22
  | .smem => 0
  | _ => 0

abbrev bufTy : (tb : Table) → Fin (tcTables nBuf tb) → BufTy
  | .hbm, ⟨0, _⟩ => ⟨S128x512, .f32⟩
  | .hbm, ⟨1, _⟩ => ⟨S128x1024, .f32⟩
  | .hbm, ⟨2, _⟩ => ⟨S1024x512, .f32⟩
  | .hbm, ⟨3, _⟩ => ⟨S1024x512, .f32⟩
  | .hbm, ⟨4, _⟩ => ⟨S512x2048, .f32⟩
  | .hbm, ⟨5, _⟩ => ⟨S512x2048, .f32⟩
  | .hbm, ⟨6, _⟩ => ⟨S2048, .f32⟩
  | .hbm, ⟨7, _⟩ => ⟨S1x2048, .f32⟩
  | .hbm, ⟨8, _⟩ => ⟨S128x512, .bf16⟩
  | .hbm, ⟨9, _⟩ => ⟨S1024x512, .bf16⟩
  | .hbm, ⟨10, _⟩ => ⟨S1024x512, .bf16⟩
  | .hbm, ⟨11, _⟩ => ⟨S512x2048, .bf16⟩
  | .hbm, ⟨12, _⟩ => ⟨S512x2048, .bf16⟩
  | .hbm, ⟨13, _⟩ => ⟨S128x512, .f32⟩
  | .hbm, ⟨14, _⟩ => ⟨S128x512, .f32⟩
  | .hbm, ⟨15, _⟩ => ⟨S128x1024, .f32⟩
  | .hbm, ⟨16, _⟩ => ⟨S1024x512, .f32⟩
  | .hbm, ⟨17, _⟩ => ⟨S1024x512, .f32⟩
  | .local _ .vmem, ⟨0, _⟩ => ⟨S128x512, .bf16⟩
  | .local _ .vmem, ⟨1, _⟩ => ⟨S128x1024, .f32⟩
  | .local _ .vmem, ⟨2, _⟩ => ⟨S1024x512, .bf16⟩
  | .local _ .vmem, ⟨3, _⟩ => ⟨S1024x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S128x512, .f32⟩
  | .local _ .vmem, ⟨8, _⟩ => ⟨S128x512, .f32⟩
  | .local _ .vmem, ⟨9, _⟩ => ⟨S128x1024, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![8], ![false]⟩

@[reducible] def k1_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c32_i32 : BitVec 32 := 32#32
  let v12 : BitVec 32 := Scalar.muli arg8 c32_i32
  v12
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v12 : BitVec 32 := Scalar.muli arg8 c32_i32
  let v13 : BitVec 32 := v12
  let v14 : Index := Scalar.indexCast v13
  let c0_13 : Index := 0#32
  ![v14.toNat, 0]
def k1_off2 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v12 : BitVec 32 := Scalar.muli arg8 c32_i32
  let v13 : BitVec 32 := v12
  let v17 : Index := Scalar.indexCast v13
  let c0_14 : Index := 0#32
  ![v17.toNat, 0]
@[reducible] def k1_t2_loop : Scf.Loop 32 :=
  let c0_i32_7 : BitVec 32 := 0#32
  let c4_i32_8 : BitVec 32 := 4#32
  let v8 : BitVec 32 := Scalar.addi c0_i32_7 c4_i32_8
  let c1_i32_9 : BitVec 32 := 1#32
  ⟨c0_i32_7, v8, c1_i32_9⟩
def k1_mult2 (k1_t2 : Fin k1_t2_loop.trips) : BitVec 32 :=
  let c0_i32_7 : BitVec 32 := 0#32
  let c1_i32_9 : BitVec 32 := 1#32
  let arg8 : BitVec 32 := Scf.iv c0_i32_7 c1_i32_9 k1_t2
  let c32_i32 : BitVec 32 := 32#32
  let v12 : BitVec 32 := Scalar.muli arg8 c32_i32
  v12
def k1_off3 (k1_t2 : Fin k1_t2_loop.trips) : Fin 2 → Nat :=
  let c0_i32_7 : BitVec 32 := 0#32
  let c1_i32_9 : BitVec 32 := 1#32
  let arg8 : BitVec 32 := Scf.iv c0_i32_7 c1_i32_9 k1_t2
  let c32_i32 : BitVec 32 := 32#32
  let v12 : BitVec 32 := Scalar.muli arg8 c32_i32
  let v13 : BitVec 32 := v12
  let v14 : Index := Scalar.indexCast v13
  let c0_13 : Index := 0#32
  ![v14.toNat, 0]
def k1_off4 (k1_t2 : Fin k1_t2_loop.trips) : Fin 2 → Nat :=
  let c0_i32_7 : BitVec 32 := 0#32
  let c1_i32_9 : BitVec 32 := 1#32
  let arg8 : BitVec 32 := Scf.iv c0_i32_7 c1_i32_9 k1_t2
  let c32_i32 : BitVec 32 := 32#32
  let v12 : BitVec 32 := Scalar.muli arg8 c32_i32
  let v13 : BitVec 32 := v12
  let v17 : Index := Scalar.indexCast v13
  let c0_14 : Index := 0#32
  ![v17.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S2048_S1x2048 : S2048.ShapeCasts S1x2048
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  broadcasts_S128x1_S128x1024 : S128x1.Broadcasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  h_S32x512 : 0 < S32x512.numel
  shapeCasts_S32x512_S32x512 : S32x512.ShapeCasts S32x512
  h_S32x128 : 0 < S32x128.numel
  shapeCasts_S32x128_S32x128 : S32x128.ShapeCasts S32x128
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S32x128_S32x128x1 : S32x128.ShapeCasts S32x128x1
  broadcasts_S32x128x1_S32x128x512 : S32x128x1.Broadcasts S32x128x512
  reduces_S32x128x512_S128x512 : S32x128x512.Reduces [0] S128x512
  dot_S128x1024_S1024x512_S128x512_1_0_0_1_n_n_wf : DotDims.WF S128x1024 S1024x512 S128x512 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .bf16 = 32 ∨ (Rect.block (s := S128x512) S128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .f32 = 32 ∨ (Rect.block (s := S128x512) S128x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S128x1024.size a
  hwx0_9 : ∀ i : grid0.Coords, EltTy.bits .f32 = 32 ∨ (Rect.block (s := S128x1024) S128x1024.size (cc0_transform_9 i) (hinb0_9 i)).WholeWords (EltTy.packing .f32)
  hrank1 : 0 < grid1.rank
  k1_t1_ok : k1_t1_loop.OK
  k1_mult1_dvd : ∀ k1_t1 : Fin k1_t1_loop.trips, 32 ∣ (k1_mult1 k1_t1).toNat
  k1_off1_inb : ∀ k1_t1 : Fin k1_t1_loop.trips, ∀ a, (k1_off1 k1_t1) a + S32x512.size a ≤ S128x512.size a
  k1_off2_inb : ∀ k1_t1 : Fin k1_t1_loop.trips, ∀ a, (k1_off2 k1_t1) a + S32x128.size a ≤ S128x128.size a
  k1_t2_ok : k1_t2_loop.OK
  k1_mult2_dvd : ∀ k1_t2 : Fin k1_t2_loop.trips, 32 ∣ (k1_mult2 k1_t2).toNat
  k1_off3_inb : ∀ k1_t2 : Fin k1_t2_loop.trips, ∀ a, (k1_off3 k1_t2) a + S32x512.size a ≤ S128x512.size a
  k1_off4_inb : ∀ k1_t2 : Fin k1_t2_loop.trips, ∀ a, (k1_off4 k1_t2) a + S32x128.size a ≤ S128x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S1024x512.size a
  hwx1_0 : ∀ i : grid1.Coords, EltTy.bits .f32 = 32 ∨ (Rect.block (s := S1024x512) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S1024x512.size a
  hwx1_1 : ∀ i : grid1.Coords, EltTy.bits .f32 = 32 ∨ (Rect.block (s := S1024x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x1024.size a
  hwx1_4 : ∀ i : grid1.Coords, EltTy.bits .f32 = 32 ∨ (Rect.block (s := S128x1024) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S1024x512.size a
  hwx1_5 : ∀ i : grid1.Coords, EltTy.bits .f32 = 32 ∨ (Rect.block (s := S1024x512) S128x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S1024x512.size a
  hwx1_6 : ∀ i : grid1.Coords, EltTy.bits .f32 = 32 ∨ (Rect.block (s := S1024x512) S128x512.size (cc1_transform_6 i) (hinb1_6 i)).WholeWords (EltTy.packing .f32)

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v1) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S128x512.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S128x512.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S128x1024.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_2) S128x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S128x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S128x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x512 : Shape := ⟨2, ![128, 512]⟩
abbrev S128x1024 : Shape := ⟨2, ![128, 1024]⟩
abbrev S1024x512 : Shape := ⟨2, ![1024, 512]⟩
abbrev S512x2048 : Shape := ⟨2, ![512, 2048]⟩
abbrev S2048 : Shape := ⟨1, ![2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S1x2048 : Shape := ⟨2, ![1, 2048]⟩
abbrev S1024x128 : Shape := ⟨2, ![1024, 128]⟩
abbrev S1024x128x1 : Shape := ⟨3, ![1024, 128, 1]⟩
abbrev S1024x1x512 : Shape := ⟨3, ![1024, 1, 512]⟩
abbrev S1024x128x512 : Shape := ⟨3, ![1024, 128, 512]⟩
abbrev S1x128x512 : Shape := ⟨3, ![1, 128, 512]⟩

abbrev nBuf : Space → Nat
  | .hbm => 98
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x1024, .f32⟩
  | .hbm, ⟨2, _⟩ => ⟨S1024x512, .f32⟩
  | .hbm, ⟨3, _⟩ => ⟨S1024x512, .f32⟩
  | .hbm, ⟨4, _⟩ => ⟨S512x2048, .f32⟩
  | .hbm, ⟨5, _⟩ => ⟨S512x2048, .f32⟩
  | .hbm, ⟨6, _⟩ => ⟨S2048, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S128x512, .f32⟩
  | .hbm, ⟨25, _⟩ => ⟨S128x512, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S1x2048, .f32⟩
  | .hbm, ⟨30, _⟩ => ⟨S128x2048, .f32⟩
  | .hbm, ⟨31, _⟩ => ⟨S128x2048, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S_, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S_, .f32⟩
  | .hbm, ⟨47, _⟩ => ⟨S128x512, .f32⟩
  | .hbm, ⟨48, _⟩ => ⟨S128x512, .f32⟩
  | .hbm, ⟨49, _⟩ => ⟨S_, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S_, .f32⟩
  | .hbm, ⟨56, _⟩ => ⟨S128x512, .f32⟩
  | .hbm, ⟨57, _⟩ => ⟨S128x512, .f32⟩
  | .hbm, ⟨58, _⟩ => ⟨S_, .f32⟩
  | .hbm, ⟨59, _⟩ => ⟨S128x512, .f32⟩
  | .hbm, ⟨60, _⟩ => ⟨S128x512, .f32⟩
  | .hbm, ⟨61, _⟩ => ⟨S128x512, .f32⟩
  | .hbm, ⟨62, _⟩ => ⟨S128x512, .f32⟩
  | .hbm, ⟨63, _⟩ => ⟨S128x512, .f32⟩
  | .hbm, ⟨64, _⟩ => ⟨S128x512, .f32⟩
  | .hbm, ⟨65, _⟩ => ⟨S128x512, .f32⟩
  | .hbm, ⟨66, _⟩ => ⟨S1024x128, .f32⟩
  | .hbm, ⟨67, _⟩ => ⟨S1024x128x1, .f32⟩
  | .hbm, ⟨68, _⟩ => ⟨S1024x1x512, .f32⟩
  | .hbm, ⟨69, _⟩ => ⟨S_, .f32⟩
  | .hbm, ⟨70, _⟩ => ⟨S1024x128x1, .f32⟩
  | .hbm, ⟨71, _⟩ => ⟨S1024x128x1, .f32⟩
  | .hbm, ⟨72, _⟩ => ⟨S1024x128x512, .f32⟩
  | .hbm, ⟨73, _⟩ => ⟨S1024x128x512, .f32⟩
  | .hbm, ⟨74, _⟩ => ⟨S1024x128x512, .f32⟩
  | .hbm, ⟨75, _⟩ => ⟨S1x128x512, .f32⟩
  | .hbm, ⟨76, _⟩ => ⟨S1024x128x512, .f32⟩
  | .hbm, ⟨77, _⟩ => ⟨S1024x128x512, .f32⟩
  | .hbm, ⟨78, _⟩ => ⟨S1024x128x512, .f32⟩
  | .hbm, ⟨79, _⟩ => ⟨S1024x128x512, .f32⟩
  | .hbm, ⟨80, _⟩ => ⟨S_, .f32⟩
  | .hbm, ⟨81, _⟩ => ⟨S1024x512, .f32⟩
  | .hbm, ⟨82, _⟩ => ⟨S1024x128, .f32⟩
  | .hbm, ⟨83, _⟩ => ⟨S1024x128x1, .f32⟩
  | .hbm, ⟨84, _⟩ => ⟨S1024x1x512, .f32⟩
  | .hbm, ⟨85, _⟩ => ⟨S_, .f32⟩
  | .hbm, ⟨86, _⟩ => ⟨S1024x128x1, .f32⟩
  | .hbm, ⟨87, _⟩ => ⟨S1024x128x1, .f32⟩
  | .hbm, ⟨88, _⟩ => ⟨S1024x128x512, .f32⟩
  | .hbm, ⟨89, _⟩ => ⟨S1024x128x512, .f32⟩
  | .hbm, ⟨90, _⟩ => ⟨S1024x128x512, .f32⟩
  | .hbm, ⟨91, _⟩ => ⟨S1x128x512, .f32⟩
  | .hbm, ⟨92, _⟩ => ⟨S1024x128x512, .f32⟩
  | .hbm, ⟨93, _⟩ => ⟨S1024x128x512, .f32⟩
  | .hbm, ⟨94, _⟩ => ⟨S1024x128x512, .f32⟩
  | .hbm, ⟨95, _⟩ => ⟨S1024x128x512, .f32⟩
  | .hbm, ⟨96, _⟩ => ⟨S_, .f32⟩
  | .hbm, ⟨97, _⟩ => ⟨S1024x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  reducesTo_S128x1024_S128_d1 : S128x1024.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x1024_0_1 : S128x1.BroadcastsInDim S128x1024 (![0, 1] : Fin 2 → Fin S128x1024.rank)
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  slices_S128x2048_S128x512_0_0 : S128x2048.Slices ![0, 0] S128x512
  slices_S128x2048_S128x512_0_512 : S128x2048.Slices ![0, 512] S128x512
  slices_S128x2048_S128x512_0_1024 : S128x2048.Slices ![0, 1024] S128x512
  slices_S128x2048_S128x512_0_1536 : S128x2048.Slices ![0, 1536] S128x512
  bcast_S_S128x512 : S_.BroadcastsInDim S128x512 (![] : Fin 0 → Fin S128x512.rank)
  transposes_S128x1024_S1024x128_1_0 : S128x1024.Transposes [1, 0] S1024x128
  bcast_S1024x128_S1024x128x1_0_1 : S1024x128.BroadcastsInDim S1024x128x1 (![0, 1] : Fin 2 → Fin S1024x128x1.rank)
  bcast_S1024x512_S1024x1x512_0_2 : S1024x512.BroadcastsInDim S1024x1x512 (![0, 2] : Fin 2 → Fin S1024x1x512.rank)
  bcast_S_S1024x128x1 : S_.BroadcastsInDim S1024x128x1 (![] : Fin 0 → Fin S1024x128x1.rank)
  bcast_S1024x1x512_S1024x128x512_0_1_2 : S1024x1x512.BroadcastsInDim S1024x128x512 (![0, 1, 2] : Fin 3 → Fin S1024x128x512.rank)
  bcast_S1024x128x1_S1024x128x512_0_1_2 : S1024x128x1.BroadcastsInDim S1024x128x512 (![0, 1, 2] : Fin 3 → Fin S1024x128x512.rank)
  bcast_S128x512_S1x128x512_1_2 : S128x512.BroadcastsInDim S1x128x512 (![1, 2] : Fin 2 → Fin S1x128x512.rank)
  bcast_S1x128x512_S1024x128x512_0_1_2 : S1x128x512.BroadcastsInDim S1024x128x512 (![0, 1, 2] : Fin 3 → Fin S1024x128x512.rank)
  reducesTo_S1024x128x512_S1024x512_d1 : S1024x128x512.ReducesTo [1] S1024x512
  dot_S128x1024_S1024x512_S128x512_1_0_0_1_n_n_wf : DotDims.WF S128x1024 S1024x512 S128x512 [1] [0] [0] [1] [] []
  dot_S128x512_S512x2048_S128x2048_1_0_0_1_n_n_wf : DotDims.WF S128x512 S512x2048 S128x2048 [1] [0] [0] [1] [] []

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

class Facts : Prop extends Facts₀ where

variable [Facts]
-- ==== Proof.RefRead.lean ====
/-
  The reference's run and its stages read one operation at a time, gathered for the modules that compare it with the kernel.
-/
import proofs.«108384_j23502061044385_2_alg».proof.Proof.Gen.ReferenceIdeal.Run
import proofs.«108384_j23502061044385_2_alg».proof.Proof.Gen.ReferenceIdeal.Read
-- ==== Proof.Spec.lean ====
/-
  The function both programs compute, index by index, on the extended reals.

  A batch of 128 rows holds logits over 1024 classes. Each row is scaled by a large constant and turned into softmax
  weights: the exponential of the scaled logit less the row's maximum, over the row's sum of those exponentials. The
  weights gather one hidden and one cell state per row out of the 1024 per-class states (a weighted sum over classes).
  One LSTM step follows: the preactivation of row `b` is the input row against the input kernel, plus the gathered hidden
  row against the recurrent kernel, plus the bias; its four consecutive column groups of 512 are the input, forget, cell
  and output gates. The new cell state is `σ(f)·c₀ + σ(i)·tanh(g)` and the new hidden state `σ(o)·tanh(c)`.

  Last, every class state is updated by blending it with each row's new state by that row's weight for the class and
  keeping the largest blend over the rows. One program spells the blend `A·(1 − w) + B·w`, the other adds to `A` the
  largest `w·(B − A)`; the two agree where all of `A`, `B`, `w` are real numbers (see the laws module).
-/
import Idealize.ShloMosaic.PureOps.Ideal
import Idealize.ShloMosaic.Lib.ValueIdx

noncomputable section

open scoped BigOperators

namespace Cert.ClassLstm

open Idealize.ShloMosaic Idealize.ShloMosaic.ValueIdx

/-- An `a × b` array of extended reals, indexed as the programs index it. -/
abbrev Mat (a b : ℕ) : Type := (⟨2, ![a, b]⟩ : Shape).Idx → EReal
/-- A length-`a` array of extended reals. -/
abbrev Row (a : ℕ) : Type := (⟨1, ![a]⟩ : Shape).Idx → EReal

/-- Every entry of an array is a real number (neither infinity). -/
def AllReal {ι : Type} (x : ι → EReal) : Prop := ∀ i, ∃ r : ℝ, x i = (r : EReal)

/-- The softmax temperature, the binary32 number nearest 10¹⁰, as both programs carry it. -/
def temp : EReal := Ideal.ofBits .f32 0x501502F9#32

/-- The largest scaled logit of row `b`. -/
def rowTop (l : Mat 128 1024) (b : Fin 128) : EReal :=
  (Finset.univ : Finset (Fin 1024)).fold max ⊥ (fun j => l (ix2 b j) * temp)

/-- Row `b`'s softmax weight of class `n`. -/
def weight (l : Mat 128 1024) (b : Fin 128) (n : Fin 1024) : EReal :=
  Ideal.div (Ideal.exp (l (ix2 b n) * temp - rowTop l b)) (∑ j : Fin 1024, Ideal.exp (l (ix2 b j) * temp - rowTop l b))

/-- Row `b`'s gathered state: the weighted sum of the per-class states `s`. -/
def gathered (l : Mat 128 1024) (s : Mat 1024 512) (b : Fin 128) (u : Fin 512) : EReal :=
  ∑ n : Fin 1024, weight l b n * s (ix2 n u)

/-- The LSTM preactivation of row `b` at column `j` of the four gate groups. -/
def preact (x : Mat 128 512) (l : Mat 128 1024) (hs : Mat 1024 512) (k rk : Mat 512 2048) (bias : Row 2048)
    (b : Fin 128) (j : Fin 2048) : EReal :=
  ((∑ f : Fin 512, x (ix2 b f) * k (ix2 f j)) + ∑ u : Fin 512, gathered l hs b u * rk (ix2 u j)) + bias (ix1 j)

/-- Column `u` of the gate group that starts at column `o`. -/
def gateCol (o : ℕ) (ho : o + 512 ≤ 2048) (u : Fin 512) : Fin 2048 := ⟨o + u.val, by have := u.isLt; omega⟩

/-- The new cell state of row `b`: forget gate times the gathered cell state, plus input gate times the candidate. -/
def cell (x : Mat 128 512) (l : Mat 128 1024) (hs cs : Mat 1024 512) (k rk : Mat 512 2048) (bias : Row 2048)
    (b : Fin 128) (u : Fin 512) : EReal :=
  Ideal.logistic (preact x l hs k rk bias b (gateCol 512 (by norm_num) u)) * gathered l cs b u
    + Ideal.logistic (preact x l hs k rk bias b (gateCol 0 (by norm_num) u))
      * Ideal.tanh (preact x l hs k rk bias b (gateCol 1024 (by norm_num) u))

/-- The new hidden state of row `b`: output gate times the squashed new cell state. -/
def hidden (x : Mat 128 512) (l : Mat 128 1024) (hs cs : Mat 1024 512) (k rk : Mat 512 2048) (bias : Row 2048)
    (b : Fin 128) (u : Fin 512) : EReal :=
  Ideal.logistic (preact x l hs k rk bias b (gateCol 1536 (by norm_num) u)) * Ideal.tanh (cell x l hs cs k rk bias b u)

/-- The class-state update, additive spelling: the old state plus the largest weighted difference over the rows. -/
def blendAdd (A : Mat 1024 512) (B : Fin 128 → Fin 512 → EReal) (w : Fin 128 → Fin 1024 → EReal) (n : Fin 1024) (u : Fin 512) :
    EReal :=
  A (ix2 n u) + (Finset.univ : Finset (Fin 128)).fold max ⊥ (fun b => w b n * (B b u - A (ix2 n u)))

/-- The class-state update, convex spelling: the largest convex combination over the rows. -/
def blendMix (A : Mat 1024 512) (B : Fin 128 → Fin 512 → EReal) (w : Fin 128 → Fin 1024 → EReal) (n : Fin 1024) (u : Fin 512) :
    EReal :=
  (Finset.univ : Finset (Fin 128)).fold max ⊥ (fun b => A (ix2 n u) * (1 - w b n) + B b u * w b n)

end Cert.ClassLstm

end
-- ==== Proof.KernelRun.lean ====
/-
  The idealized kernel program's run with its result arrays named.

  The program is a stretch of host operations followed by two kernel regions. Every weakly fair execution from a memory with
  zero counters terminates without a fault; afterwards each unscoped buffer holds what the fold of the three segments over the
  launch memory leaves there. Read at the three result buffers this names the results; read at the seven argument buffers it
  says they are unchanged. What the fold holds at a result buffer — the first region's output for the new hidden row
  states, the second region's two outputs for the updated class states — is stated next, in terms of each region's
  proof data.
-/
import proofs.«108384_j23502061044385_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the three result buffers end at the fold's contents, the seven arguments as launched. -/
theorem run_named : θ_run defs (onTc (τ := τ) (main (F := F))) ⟨m, fun _ => 0, ρ⟩ (fun r => ∀ c : Dev nD,
      r.2.mem ((c.tc : Thread nD τ).loc main_v6_0) = W3 m ρ c (Proc.devRef .tc main_v6_0)
      ∧ r.2.mem ((c.tc : Thread nD τ).loc main_v7_0) = W3 m ρ c (Proc.devRef .tc main_v7_0)
      ∧ r.2.mem ((c.tc : Thread nD τ).loc main_v7_1) = W3 m ρ c (Proc.devRef .tc main_v7_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6_0 (by decide)),
       h c _ (mem_uc main_v7_0 (by decide)),
       h c _ (mem_uc main_v7_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The new hidden row states: the second region only reads them, so the fold holds there what the first region's
    pipeline leaves in its first output's array. -/
theorem W3_hidden (c : Dev nD) : W3 m ρ c (Proc.devRef .tc main_v6_0) = (dat0 (V1 m ρ) c).arrAt 7 cfg0.N :=
  ((W3_arr m ρ c 2).trans (((dat1 (V2 m ρ) c).arrAt_in 2 rfl _).trans (A_eq1 (V2 m ρ) c 2))).trans (W2_arr m ρ c 7)

/-- The updated class hidden states: what the second region's pipeline leaves in its first output's array. -/
theorem W3_newHidden (c : Dev nD) : W3 m ρ c (Proc.devRef .tc main_v7_0) = (dat1 (V2 m ρ) c).arrAt 5 cfg1.N :=
  W3_arr m ρ c 5

/-- The updated class cell states: what the second region's pipeline leaves in its second output's array. -/
theorem W3_newCell (c : Dev nD) : W3 m ρ c (Proc.devRef .tc main_v7_1) = (dat1 (V2 m ρ) c).arrAt 6 cfg1.N :=
  W3_arr m ρ c 6

end Cert.KernelIdeal.Run

end
-- ==== Proof.Region0.lean ====
/-
  The first region's three result arrays as functions of the arrays it finds on entry.

  The region has one grid point and every one of its ten windows is a single block that is its whole array, at block
  index (0, 0): an element's place inside the block is its place in the array. So each input block is the entry
  contents of its array, and each output array ends holding the one value the body stores into the output's buffer:
  the new hidden row states, the new cell row states, and the softmax weights, each as the body's arithmetic applied
  to the entry contents of the seven operand arrays.
-/
import proofs.«108384_j23502061044385_2_alg».proof.Proof.Gen.KernelIdeal.Frame
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Every window's block index at the one grid point is (0, 0). -/
theorem index_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Window 0's block is its whole array: an element's place in the block is its place in the array. -/
theorem emb_0 (t : Fin cfg0.N) (j : S128x512.Idx) : ((cfg0.win 0).blk t).view.emb j = j := by
  funext a; apply Fin.ext
  obtain ⟨e0, e1⟩ := (index_zero t).1
  match a with
  | ⟨0, _⟩ => show win0_0.index t (0 : Fin 2) * 128 + 1 * (j 0).val = (j 0).val; omega
  | ⟨1, _⟩ => show win0_0.index t (1 : Fin 2) * 512 + 1 * (j 1).val = (j 1).val; omega

/-- Window 1's block is its whole array: an element's place in the block is its place in the array. -/
theorem emb_1 (t : Fin cfg0.N) (j : S128x1024.Idx) : ((cfg0.win 1).blk t).view.emb j = j := by
  funext a; apply Fin.ext
  obtain ⟨e0, e1⟩ := (index_zero t).2.1
  match a with
  | ⟨0, _⟩ => show win0_1.index t (0 : Fin 2) * 128 + 1 * (j 0).val = (j 0).val; omega
  | ⟨1, _⟩ => show win0_1.index t (1 : Fin 2) * 1024 + 1 * (j 1).val = (j 1).val; omega

/-- Window 2's block is its whole array: an element's place in the block is its place in the array. -/
theorem emb_2 (t : Fin cfg0.N) (j : S1024x512.Idx) : ((cfg0.win 2).blk t).view.emb j = j := by
  funext a; apply Fin.ext
  obtain ⟨e0, e1⟩ := (index_zero t).2.2.1
  match a with
  | ⟨0, _⟩ => show win0_2.index t (0 : Fin 2) * 1024 + 1 * (j 0).val = (j 0).val; omega
  | ⟨1, _⟩ => show win0_2.index t (1 : Fin 2) * 512 + 1 * (j 1).val = (j 1).val; omega

/-- Window 3's block is its whole array: an element's place in the block is its place in the array. -/
theorem emb_3 (t : Fin cfg0.N) (j : S1024x512.Idx) : ((cfg0.win 3).blk t).view.emb j = j := by
  funext a; apply Fin.ext
  obtain ⟨e0, e1⟩ := (index_zero t).2.2.2.1
  match a with
  | ⟨0, _⟩ => show win0_3.index t (0 : Fin 2) * 1024 + 1 * (j 0).val = (j 0).val; omega
  | ⟨1, _⟩ => show win0_3.index t (1 : Fin 2) * 512 + 1 * (j 1).val = (j 1).val; omega

/-- Window 4's block is its whole array: an element's place in the block is its place in the array. -/
theorem emb_4 (t : Fin cfg0.N) (j : S512x2048.Idx) : ((cfg0.win 4).blk t).view.emb j = j := by
  funext a; apply Fin.ext
  obtain ⟨e0, e1⟩ := (index_zero t).2.2.2.2.1
  match a with
  | ⟨0, _⟩ => show win0_4.index t (0 : Fin 2) * 512 + 1 * (j 0).val = (j 0).val; omega
  | ⟨1, _⟩ => show win0_4.index t (1 : Fin 2) * 2048 + 1 * (j 1).val = (j 1).val; omega

/-- Window 5's block is its whole array: an element's place in the block is its place in the array. -/
theorem emb_5 (t : Fin cfg0.N) (j : S512x2048.Idx) : ((cfg0.win 5).blk t).view.emb j = j := by
  funext a; apply Fin.ext
  obtain ⟨e0, e1⟩ := (index_zero t).2.2.2.2.2.1
  match a with
  | ⟨0, _⟩ => show win0_5.index t (0 : Fin 2) * 512 + 1 * (j 0).val = (j 0).val; omega
  | ⟨1, _⟩ => show win0_5.index t (1 : Fin 2) * 2048 + 1 * (j 1).val = (j 1).val; omega

/-- Window 6's block is its whole array: an element's place in the block is its place in the array. -/
theorem emb_6 (t : Fin cfg0.N) (j : S1x2048.Idx) : ((cfg0.win 6).blk t).view.emb j = j := by
  funext a; apply Fin.ext
  obtain ⟨e0, e1⟩ := (index_zero t).2.2.2.2.2.2.1
  match a with
  | ⟨0, _⟩ => show win0_6.index t (0 : Fin 2) * 1 + 1 * (j 0).val = (j 0).val; omega
  | ⟨1, _⟩ => show win0_6.index t (1 : Fin 2) * 2048 + 1 * (j 1).val = (j 1).val; omega

/-- Window 7's block is its whole array: an element's place in the block is its place in the array. -/
theorem emb_7 (t : Fin cfg0.N) (j : S128x512.Idx) : ((cfg0.win 7).blk t).view.emb j = j := by
  funext a; apply Fin.ext
  obtain ⟨e0, e1⟩ := (index_zero t).2.2.2.2.2.2.2.1
  match a with
  | ⟨0, _⟩ => show win0_7.index t (0 : Fin 2) * 128 + 1 * (j 0).val = (j 0).val; omega
  | ⟨1, _⟩ => show win0_7.index t (1 : Fin 2) * 512 + 1 * (j 1).val = (j 1).val; omega

/-- Window 8's block is its whole array: an element's place in the block is its place in the array. -/
theorem emb_8 (t : Fin cfg0.N) (j : S128x512.Idx) : ((cfg0.win 8).blk t).view.emb j = j := by
  funext a; apply Fin.ext
  obtain ⟨e0, e1⟩ := (index_zero t).2.2.2.2.2.2.2.2.1
  match a with
  | ⟨0, _⟩ => show win0_8.index t (0 : Fin 2) * 128 + 1 * (j 0).val = (j 0).val; omega
  | ⟨1, _⟩ => show win0_8.index t (1 : Fin 2) * 512 + 1 * (j 1).val = (j 1).val; omega

/-- Window 9's block is its whole array: an element's place in the block is its place in the array. -/
theorem emb_9 (t : Fin cfg0.N) (j : S128x1024.Idx) : ((cfg0.win 9).blk t).view.emb j = j := by
  funext a; apply Fin.ext
  obtain ⟨e0, e1⟩ := (index_zero t).2.2.2.2.2.2.2.2.2
  match a with
  | ⟨0, _⟩ => show win0_9.index t (0 : Fin 2) * 128 + 1 * (j 0).val = (j 0).val; omega
  | ⟨1, _⟩ => show win0_9.index t (1 : Fin 2) * 1024 + 1 * (j 1).val = (j 1).val; omega

/-- Input window 0's block at the point is the entry contents of its array. -/
theorem block_0 (c : Dev nD) (t : Fin cfg0.N) : iblk0 V c 0 t = V c main_v1 := by
  funext j
  show V c main_v1 (((cfg0.win 0).blk t).view.emb j) = V c main_v1 j
  rw [emb_0]

/-- Input window 1's block at the point is the entry contents of its array. -/
theorem block_1 (c : Dev nD) (t : Fin cfg0.N) : iblk0 V c 1 t = V c main_arg1 := by
  funext j
  show V c main_arg1 (((cfg0.win 1).blk t).view.emb j) = V c main_arg1 j
  rw [emb_1]

/-- Input window 2's block at the point is the entry contents of its array. -/
theorem block_2 (c : Dev nD) (t : Fin cfg0.N) : iblk0 V c 2 t = V c main_v2 := by
  funext j
  show V c main_v2 (((cfg0.win 2).blk t).view.emb j) = V c main_v2 j
  rw [emb_2]

/-- Input window 3's block at the point is the entry contents of its array. -/
theorem block_3 (c : Dev nD) (t : Fin cfg0.N) : iblk0 V c 3 t = V c main_v3 := by
  funext j
  show V c main_v3 (((cfg0.win 3).blk t).view.emb j) = V c main_v3 j
  rw [emb_3]

/-- Input window 4's block at the point is the entry contents of its array. -/
theorem block_4 (c : Dev nD) (t : Fin cfg0.N) : iblk0 V c 4 t = V c main_v4 := by
  funext j
  show V c main_v4 (((cfg0.win 4).blk t).view.emb j) = V c main_v4 j
  rw [emb_4]

/-- Input window 5's block at the point is the entry contents of its array. -/
theorem block_5 (c : Dev nD) (t : Fin cfg0.N) : iblk0 V c 5 t = V c main_v5 := by
  funext j
  show V c main_v5 (((cfg0.win 5).blk t).view.emb j) = V c main_v5 j
  rw [emb_5]

/-- Input window 6's block at the point is the entry contents of its array. -/
theorem block_6 (c : Dev nD) (t : Fin cfg0.N) : iblk0 V c 6 t = V c main_v0 := by
  funext j
  show V c main_v0 (((cfg0.win 6).blk t).view.emb j) = V c main_v0 j
  rw [emb_6]

/-- Output window 7's array after the region: the new hidden row states, the body's arithmetic on the entry contents. -/
theorem hidden_array (c : Dev nD) :
    (dat0 V c).arrAt 7 cfg0.N = (k0_pay2 (k0_pay5 (V c main_arg1) (V c main_v3)) (k0_pay6 (V c main_arg1) (V c main_v2) (V c main_v1) (V c main_v4) (V c main_v5) (V c main_v0)) (k0_pay7 (V c main_arg1) (V c main_v2) (V c main_v1) (V c main_v4) (V c main_v5) (V c main_v0)) (k0_pay8 (V c main_arg1) (V c main_v2) (V c main_v1) (V c main_v4) (V c main_v5) (V c main_v0)) (k0_pay9 (V c main_arg1) (V c main_v2) (V c main_v1) (V c main_v4) (V c main_v5) (V c main_v0)) : S128x512.Idx → Elt F .f32) := by
  refine (dat0 V c).arrAt_eq_of_cover 7 _ (fun t _ => ?_) (fun i => ?_)
  · show (cfg0.win 7).cut (grid0.coords t) ((dat0 V c).after 7 t) = _
    rw [after0_7]
    unfold out0_7
    rw [View.canon_unit_zero zero_offsets]
    simp only [View.ld_unit_zero (S := S128x1024) zero_offsets, View.ld_unit_zero (S := S1024x512) zero_offsets,
      View.ld_unit_zero (S := S128x512) zero_offsets, View.ld_unit_zero (S := S512x2048) zero_offsets,
      View.ld_unit_zero (S := S1x2048) zero_offsets]
    simp only [block_0 V c t, block_1 V c t, block_2 V c t, block_3 V c t, block_4 V c t, block_5 V c t, block_6 V c t]
    funext j
    show _ = (k0_pay2 (k0_pay5 (V c main_arg1) (V c main_v3)) (k0_pay6 (V c main_arg1) (V c main_v2) (V c main_v1) (V c main_v4) (V c main_v5) (V c main_v0)) (k0_pay7 (V c main_arg1) (V c main_v2) (V c main_v1) (V c main_v4) (V c main_v5) (V c main_v0)) (k0_pay8 (V c main_arg1) (V c main_v2) (V c main_v1) (V c main_v4) (V c main_v5) (V c main_v0)) (k0_pay9 (V c main_arg1) (V c main_v2) (V c main_v1) (V c main_v4) (V c main_v5) (V c main_v0)) : S128x512.Idx → Elt F .f32) (((cfg0.win 7).blk t).view.emb j)
    rw [emb_7]
  · refine ⟨t0_0, flush0_7 t0_0, ?_⟩
    show i ∈ ((View.whole main_v6_0).slice (win0_7.rect t0_0)).set
    rw [View.set_slice_whole, Rect.mem_set_unit]
    intro a
    obtain ⟨e0, e1⟩ := (index_zero t0_0).2.2.2.2.2.2.2.1
    match a with
    | ⟨0, _⟩ => show win0_7.index t0_0 (0 : Fin 2) * 128 ≤ (i 0).val ∧ (i 0).val < win0_7.index t0_0 (0 : Fin 2) * 128 + 128; have h0 : (i 0).val < 128 := (i 0).isLt; omega
    | ⟨1, _⟩ => show win0_7.index t0_0 (1 : Fin 2) * 512 ≤ (i 1).val ∧ (i 1).val < win0_7.index t0_0 (1 : Fin 2) * 512 + 512; have h1 : (i 1).val < 512 := (i 1).isLt; omega

/-- Output window 8's array after the region: the new cell row states, the body's arithmetic on the entry contents. -/
theorem cell_array (c : Dev nD) :
    (dat0 V c).arrAt 8 cfg0.N = (k0_pay1 (k0_pay5 (V c main_arg1) (V c main_v3)) (k0_pay7 (V c main_arg1) (V c main_v2) (V c main_v1) (V c main_v4) (V c main_v5) (V c main_v0)) (k0_pay8 (V c main_arg1) (V c main_v2) (V c main_v1) (V c main_v4) (V c main_v5) (V c main_v0)) (k0_pay9 (V c main_arg1) (V c main_v2) (V c main_v1) (V c main_v4) (V c main_v5) (V c main_v0)) : S128x512.Idx → Elt F .f32) := by
  refine (dat0 V c).arrAt_eq_of_cover 8 _ (fun t _ => ?_) (fun i => ?_)
  · show (cfg0.win 8).cut (grid0.coords t) ((dat0 V c).after 8 t) = _
    rw [after0_8]
    unfold out0_8
    rw [View.canon_unit_zero zero_offsets]
    simp only [View.ld_unit_zero (S := S128x1024) zero_offsets, View.ld_unit_zero (S := S1024x512) zero_offsets,
      View.ld_unit_zero (S := S128x512) zero_offsets, View.ld_unit_zero (S := S512x2048) zero_offsets,
      View.ld_unit_zero (S := S1x2048) zero_offsets]
    simp only [block_0 V c t, block_1 V c t, block_2 V c t, block_3 V c t, block_4 V c t, block_5 V c t, block_6 V c t]
    funext j
    show _ = (k0_pay1 (k0_pay5 (V c main_arg1) (V c main_v3)) (k0_pay7 (V c main_arg1) (V c main_v2) (V c main_v1) (V c main_v4) (V c main_v5) (V c main_v0)) (k0_pay8 (V c main_arg1) (V c main_v2) (V c main_v1) (V c main_v4) (V c main_v5) (V c main_v0)) (k0_pay9 (V c main_arg1) (V c main_v2) (V c main_v1) (V c main_v4) (V c main_v5) (V c main_v0)) : S128x512.Idx → Elt F .f32) (((cfg0.win 8).blk t).view.emb j)
    rw [emb_8]
  · refine ⟨t0_0, flush0_8 t0_0, ?_⟩
    show i ∈ ((View.whole main_v6_1).slice (win0_8.rect t0_0)).set
    rw [View.set_slice_whole, Rect.mem_set_unit]
    intro a
    obtain ⟨e0, e1⟩ := (index_zero t0_0).2.2.2.2.2.2.2.2.1
    match a with
    | ⟨0, _⟩ => show win0_8.index t0_0 (0 : Fin 2) * 128 ≤ (i 0).val ∧ (i 0).val < win0_8.index t0_0 (0 : Fin 2) * 128 + 128; have h0 : (i 0).val < 128 := (i 0).isLt; omega
    | ⟨1, _⟩ => show win0_8.index t0_0 (1 : Fin 2) * 512 ≤ (i 1).val ∧ (i 1).val < win0_8.index t0_0 (1 : Fin 2) * 512 + 512; have h1 : (i 1).val < 512 := (i 1).isLt; omega

/-- Output window 9's array after the region: the softmax weights, the body's arithmetic on the entry contents. -/
theorem weights_array (c : Dev nD) :
    (dat0 V c).arrAt 9 cfg0.N = (k0_pay3 (V c main_arg1) : S128x1024.Idx → Elt F .f32) := by
  refine (dat0 V c).arrAt_eq_of_cover 9 _ (fun t _ => ?_) (fun i => ?_)
  · show (cfg0.win 9).cut (grid0.coords t) ((dat0 V c).after 9 t) = _
    rw [after0_9]
    unfold out0_9
    rw [View.canon_unit_zero zero_offsets]
    simp only [View.ld_unit_zero (S := S128x1024) zero_offsets, View.ld_unit_zero (S := S1024x512) zero_offsets,
      View.ld_unit_zero (S := S128x512) zero_offsets, View.ld_unit_zero (S := S512x2048) zero_offsets,
      View.ld_unit_zero (S := S1x2048) zero_offsets]
    simp only [block_0 V c t, block_1 V c t, block_2 V c t, block_3 V c t, block_4 V c t, block_5 V c t, block_6 V c t]
    funext j
    show _ = (k0_pay3 (V c main_arg1) : S128x1024.Idx → Elt F .f32) (((cfg0.win 9).blk t).view.emb j)
    rw [emb_9]
  · refine ⟨t0_0, flush0_9 t0_0, ?_⟩
    show i ∈ ((View.whole main_v6_2).slice (win0_9.rect t0_0)).set
    rw [View.set_slice_whole, Rect.mem_set_unit]
    intro a
    obtain ⟨e0, e1⟩ := (index_zero t0_0).2.2.2.2.2.2.2.2.2
    match a with
    | ⟨0, _⟩ => show win0_9.index t0_0 (0 : Fin 2) * 128 ≤ (i 0).val ∧ (i 0).val < win0_9.index t0_0 (0 : Fin 2) * 128 + 128; have h0 : (i 0).val < 128 := (i 0).isLt; omega
    | ⟨1, _⟩ => show win0_9.index t0_0 (1 : Fin 2) * 1024 ≤ (i 1).val ∧ (i 1).val < win0_9.index t0_0 (1 : Fin 2) * 1024 + 1024; have h1 : (i 1).val < 1024 := (i 1).isLt; omega

end Cert.KernelIdeal.Region0

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernelEntries.lean ====
/-
  The first region of the kernel read entry by entry: the softmax weights of the scaled logits, the two gathers of
  per-class states by those weights, and one LSTM step on the gathered row.

  Each named pure term of the kernel body is read at an index `(b, ·)` and shown to be the corresponding function of the
  specification: the keepdims row softmax is `weight`; a product into the zero accumulator is the weighted sum
  `gathered`; two more products plus the bias row are `preact`; the column groups of the preactivation through the
  logistic and hyperbolic tangent give `cell` and `hidden`.
-/
import proofs.«108384_j23502061044385_2_alg».proof.Proof.Spec
import proofs.«108384_j23502061044385_2_alg».proof.Proof.Gen.KernelIdeal.Skeleton
import proofs.«108384_j23502061044385_2_alg».proof.Proof.LibColumnLayout
import proofs.«108384_j23502061044385_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ClassLstm.Kern

open Cert.ClassLstm Cert.KernelIdeal Cert.KernelIdeal.Gen Idealize.ShloMosaic Idealize.ShloMosaic.ValueIdx

/-- The softmax weights at an entry: the printed keepdims row softmax of the scaled logits. -/
theorem weight_entry (L : Vec Ideal S128x1024 .f32) (b : Fin 128) (n : Fin 1024) :
    k0_pay3 (F := Ideal) L (ix2 b n) = weight L b n := by
  unfold k0_pay3
  refine (ColumnLayout.rowSoftmax_apply (a := 128) (b := 1024)
    (mulf L (broadcast S128x1024 (Scalar.ofBits .f32 0x501502F9#32))) reduces_S128x1024_S128 (.inl rfl) (.inl rfl) rfl rfl
    shapeCasts_S128_S128x1 broadcasts_S128x1_S128x1024 b n).trans ?_
  rfl

/-- The printed record of the weights-by-states product is the plain `128 × 1024` by `1024 × 512` product. -/
theorem dot_gather_eq : dot_S128x1024_S1024x512_S128x512_1_0_0_1_n_n = DotDims.plain 128 1024 512 := rfl

/-- The printed record of the row-by-kernel product is the plain `128 × 512` by `512 × 2048` product. -/
theorem dot_gate_eq : dot_S128x512_S512x2048_S128x2048_1_0_0_1_n_n = DotDims.plain 128 512 2048 := rfl

/-- The weights (in the narrower float format, the identity on the extended reals) against per-class states, into the
    zero accumulator, at an entry: the weighted sum over the classes. -/
theorem gather_apply (L : Vec Ideal S128x1024 .f32) (S : FVec Ideal S1024x512 .bf16) (b : Fin 128) (u : Fin 512) :
    matmul dot_S128x1024_S1024x512_S128x512_1_0_0_1_n_n none (k0_pay4 (F := Ideal) L) S
        (constant S128x512 .f32 0x00000000#32) (ix2 b u)
      = gathered L S b u := by
  rw [dot_gather_eq]
  refine (PlainMatmul.matmul_zero_apply (m := 128) (k := 1024) (n := 512) none (k0_pay4 (F := Ideal) L) S b u).trans ?_
  refine Finset.sum_congr rfl fun c _ => ?_
  refine congrArg (· * S (ix2 c u)) ?_
  unfold k0_pay4
  exact weight_entry L b c

/-- The gathered state at an entry. -/
theorem gathered_entry (L : Vec Ideal S128x1024 .f32) (S : Vec Ideal S1024x512 .bf16) (b : Fin 128) (u : Fin 512) :
    k0_pay5 (F := Ideal) L S (ix2 b u) = gathered L S b u := by
  unfold k0_pay5
  rw [shapeCast_self]
  exact gather_apply L S b u

/-- A row block against a kernel, into the zero accumulator, at an entry: the sum over the contracted position. -/
theorem gate_apply {φ : FTy} (A : FVec Ideal S128x512 φ) (B : FVec Ideal S512x2048 .bf16) (b : Fin 128) (j : Fin 2048) :
    matmul dot_S128x512_S512x2048_S128x2048_1_0_0_1_n_n none A B (constant S128x2048 .f32 0x00000000#32) (ix2 b j)
      = ∑ c : Fin 512, A (ix2 b c) * B (ix2 c j) := by
  rw [dot_gate_eq]
  exact PlainMatmul.matmul_zero_apply (m := 128) (k := 512) (n := 2048) none A B b j

/-- The preactivation at an entry: the input row against the kernel, plus the gathered hidden row (in the narrower float
    format, the identity on the extended reals) against the recurrent kernel, plus the bias row broadcast down the rows. -/
theorem preact_entry (X : Vec Ideal S128x512 .bf16) (L : Vec Ideal S128x1024 .f32) (HS : Vec Ideal S1024x512 .bf16)
    (K RK : Vec Ideal S512x2048 .bf16) (Bv : Vec Ideal S1x2048 .f32) (bias : Row 2048)
    (hb : ∀ j : Fin 2048, Bv (ix2 (0 : Fin 1) j) = bias (ix1 j)) (b : Fin 128) (j : Fin 2048) :
    k0_pay6 (F := Ideal) L HS X K RK Bv (ix2 b j) = preact X L HS K RK bias b j := by
  unfold k0_pay6
  simp only [shapeCast_self]
  refine (addf_apply _ _ _).trans ?_
  refine congrArg₂ (· + ·) ((addf_apply _ _ _).trans (congrArg₂ (· + ·) (gate_apply X K b j) ?_)) ?_
  · refine (gate_apply _ RK b j).trans (Finset.sum_congr rfl fun u _ => congrArg (· * RK (ix2 u j)) ?_)
    exact (truncf_apply (ψ := .bf16) _ bitsLt_bf16_f32 (ix2 b u)).trans (gather_apply L HS b u)
  · exact (broadcastTo_1b_ab_apply Bv _ b j).trans (hb j)

/-- A group of 512 columns of the preactivation starting at column `o`, at an entry: column `o + u` of the source. -/
theorem gate_slice_apply (o : ℕ) (ho : o + 512 ≤ 2048) (P : FVec Ideal S128x2048 .f32)
    (h : S128x2048.Slices ![0, o] S128x512) (b : Fin 128) (u : Fin 512) :
    extractStridedSlice S128x512 ![0, o] P h (ix2 b u) = P (ix2 b (gateCol o ho u)) :=
  slice2_axis1_apply o P h b u (gateCol o ho u) rfl

section Gates

variable (X : Vec Ideal S128x512 .bf16) (L : Vec Ideal S128x1024 .f32) (HS : Vec Ideal S1024x512 .bf16)
  (K RK : Vec Ideal S512x2048 .bf16) (Bv : Vec Ideal S1x2048 .f32) (bias : Row 2048)
  (hb : ∀ j : Fin 2048, Bv (ix2 (0 : Fin 1) j) = bias (ix1 j))

include hb

/-- The input gate at an entry: the logistic of the first column group of the preactivation. -/
theorem input_gate_entry (b : Fin 128) (u : Fin 512) :
    k0_pay7 (F := Ideal) L HS X K RK Bv (ix2 b u)
      = Ideal.logistic (preact X L HS K RK bias b (gateCol 0 (by norm_num) u)) := by
  unfold k0_pay7
  show Ideal.logistic (extractStridedSlice S128x512 ![0, 0] (k0_pay6 (F := Ideal) L HS X K RK Bv)
    slices_S128x2048_o0_0_S128x512 (ix2 b u)) = _
  rw [gate_slice_apply 0 (by norm_num), preact_entry X L HS K RK Bv bias hb]

/-- The forget gate at an entry: the logistic of the second column group of the preactivation. -/
theorem forget_gate_entry (b : Fin 128) (u : Fin 512) :
    k0_pay8 (F := Ideal) L HS X K RK Bv (ix2 b u)
      = Ideal.logistic (preact X L HS K RK bias b (gateCol 512 (by norm_num) u)) := by
  unfold k0_pay8
  show Ideal.logistic (extractStridedSlice S128x512 ![0, 512] (k0_pay6 (F := Ideal) L HS X K RK Bv)
    slices_S128x2048_o0_512_S128x512 (ix2 b u)) = _
  rw [gate_slice_apply 512 (by norm_num), preact_entry X L HS K RK Bv bias hb]

/-- The candidate's preactivation at an entry: the third column group of the preactivation. -/
theorem candidate_entry (b : Fin 128) (u : Fin 512) :
    k0_pay9 (F := Ideal) L HS X K RK Bv (ix2 b u) = preact X L HS K RK bias b (gateCol 1024 (by norm_num) u) := by
  unfold k0_pay9
  show extractStridedSlice S128x512 ![0, 1024] (k0_pay6 (F := Ideal) L HS X K RK Bv)
    slices_S128x2048_o0_1024_S128x512 (ix2 b u) = _
  rw [gate_slice_apply 1024 (by norm_num), preact_entry X L HS K RK Bv bias hb]

/-- The new cell state at an entry. -/
theorem cell_entry (CS : Vec Ideal S1024x512 .bf16) (b : Fin 128) (u : Fin 512) :
    k0_pay1 (F := Ideal) (k0_pay5 L CS) (k0_pay7 L HS X K RK Bv) (k0_pay8 L HS X K RK Bv) (k0_pay9 L HS X K RK Bv) (ix2 b u)
      = cell X L HS CS K RK bias b u := by
  unfold k0_pay1
  show k0_pay8 (F := Ideal) L HS X K RK Bv (ix2 b u) * k0_pay5 (F := Ideal) L CS (ix2 b u)
      + k0_pay7 (F := Ideal) L HS X K RK Bv (ix2 b u) * Ideal.tanh (k0_pay9 (F := Ideal) L HS X K RK Bv (ix2 b u)) = _
  rw [forget_gate_entry X L HS K RK Bv bias hb, gathered_entry, input_gate_entry X L HS K RK Bv bias hb,
    candidate_entry X L HS K RK Bv bias hb]
  rfl

/-- The new hidden state at an entry. -/
theorem hidden_entry (CS : Vec Ideal S1024x512 .bf16) (b : Fin 128) (u : Fin 512) :
    k0_pay2 (F := Ideal) (k0_pay5 L CS) (k0_pay6 L HS X K RK Bv) (k0_pay7 L HS X K RK Bv) (k0_pay8 L HS X K RK Bv)
        (k0_pay9 L HS X K RK Bv) (ix2 b u)
      = hidden X L HS CS K RK bias b u := by
  unfold k0_pay2
  show Ideal.logistic (extractStridedSlice S128x512 ![0, 1536] (k0_pay6 (F := Ideal) L HS X K RK Bv)
        slices_S128x2048_o0_1536_S128x512 (ix2 b u))
      * Ideal.tanh (k0_pay1 (F := Ideal) (k0_pay5 L CS) (k0_pay7 L HS X K RK Bv) (k0_pay8 L HS X K RK Bv)
        (k0_pay9 L HS X K RK Bv) (ix2 b u)) = _
  rw [gate_slice_apply 1536 (by norm_num), preact_entry X L HS K RK Bv bias hb, cell_entry X L HS K RK Bv bias hb]
  rfl

end Gates

end Cert.ClassLstm.Kern

end
-- ==== Proof.Region0Spec.lean ====
/-
  The first region's three result arrays in the specification's terms.

  After the region, the hidden-state array, the cell-state array and the weights array hold, entry by entry, the
  specification's `hidden`, `cell` and `weight` of the arrays the region found on entry: each result array is the
  body's arithmetic applied to the entry contents, and that arithmetic read at an entry is the specification's function.
-/
import proofs.«108384_j23502061044385_2_alg».proof.Proof.Spec
import proofs.«108384_j23502061044385_2_alg».proof.Proof.Region0
import proofs.«108384_j23502061044385_2_alg».proof.Proof.KernelEntries

set_option maxRecDepth 16384

noncomputable section

namespace Cert.KernelIdeal.Region0

open Cert.KernelIdeal Cert.KernelIdeal.Gen
open Idealize.ShloMosaic Idealize.ShloMosaic.TcCoe
open Idealize.SL Idealize.SL.Sem
open Idealize.ShloMosaic.Pipeline (Dat Cfg Window)
open Cert.ClassLstm Cert.ClassLstm.Kern Idealize.ShloMosaic.ValueIdx

variable (V : (c : Dev nD) → (b : Ref sig .tc) → Buf (Elt Ideal) ((c : Thread nD τ).loc b))

/-- The hidden-state array after the region, at an entry: the specification's new hidden state of the entry contents. -/
theorem hidden_at (c : Dev nD) (bias : Row 2048) (hb : ∀ j : Fin 2048, V c main_v0 (ix2 (0 : Fin 1) j) = bias (ix1 j))
    (b : Fin 128) (u : Fin 512) :
    (dat0 V c).arrAt 7 cfg0.N (ix2 b u)
      = hidden (V c main_v1) (V c main_arg1) (V c main_v2) (V c main_v3) (V c main_v4) (V c main_v5) bias b u :=
  (congrFun (hidden_array V c) (ix2 b u)).trans
    (hidden_entry (V c main_v1) (V c main_arg1) (V c main_v2) (V c main_v4) (V c main_v5) (V c main_v0) bias hb
      (V c main_v3) b u)

/-- The cell-state array after the region, at an entry: the specification's new cell state of the entry contents. -/
theorem cell_at (c : Dev nD) (bias : Row 2048) (hb : ∀ j : Fin 2048, V c main_v0 (ix2 (0 : Fin 1) j) = bias (ix1 j))
    (b : Fin 128) (u : Fin 512) :
    (dat0 V c).arrAt 8 cfg0.N (ix2 b u)
      = cell (V c main_v1) (V c main_arg1) (V c main_v2) (V c main_v3) (V c main_v4) (V c main_v5) bias b u :=
  (congrFun (cell_array V c) (ix2 b u)).trans
    (cell_entry (V c main_v1) (V c main_arg1) (V c main_v2) (V c main_v4) (V c main_v5) (V c main_v0) bias hb
      (V c main_v3) b u)

/-- The weights array after the region, at an entry: the specification's softmax weight of the entry logits. -/
theorem weight_at (c : Dev nD) (b : Fin 128) (n : Fin 1024) :
    (dat0 V c).arrAt 9 cfg0.N (ix2 b n) = weight (V c main_arg1) b n :=
  (congrFun (weights_array V c) (ix2 b n)).trans (weight_entry (V c main_arg1) b n)

end Cert.KernelIdeal.Region0

end
-- ==== Proof.HostEntry.lean ====
/-
  What the kernel program's host operations leave in the buffers its two regions read, at the extended reals.

  Before the first region the program reshapes the bias row to a `[1, 2048]` array and converts five of its arguments to
  a narrower float format. At the extended reals a conversion is the identity, so each converted buffer holds the
  argument itself; a reshape keeps the row-major position, so the `[1, 2048]` array at `(0, j)` holds the bias at `j`.
  The logits are read as launched: no host operation writes them. After the first region its three results hold what
  its write-backs leave, and the class states, which it does not touch, are still as launched.
-/
import proofs.«108384_j23502061044385_2_alg».proof.Proof.Gen.KernelIdeal.Frame
import proofs.«108384_j23502061044385_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Cert.ClassLstm Idealize.ShloMosaic Idealize.ShloMosaic.ValueIdx Idealize.SL.Sem
open Idealize.ShloMosaic.TcCoe

variable (m : (ℓ : Loc nD τ sig) → Buf (Elt Ideal) ℓ) (ρ : Dev nD → PrngReg) (c : Dev nD)

/-- The converted input rows are the input rows. -/
theorem x_entry : (V1 m ρ c main_v1 : Mat 128 512) = m ((c.tc : Thread nD τ).loc main_arg0) := by
  dsimp only [V1, W1, hostOps0]
  after_results
  rfl

/-- The logits are as launched: no host operation writes them. -/
theorem logits_entry : (V1 m ρ c main_arg1 : Mat 128 1024) = m ((c.tc : Thread nD τ).loc main_arg1) :=
  calc (V1 m ρ c main_arg1 : Mat 128 1024)
    _ = W0 m ρ c (Proc.devRef .tc main_arg1) :=
        StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c.tc : Thread nD τ).loc main_arg1) := rfl

/-- The converted class hidden states are the class hidden states. -/
theorem hs_entry : (V1 m ρ c main_v2 : Mat 1024 512) = m ((c.tc : Thread nD τ).loc main_arg2) := by
  dsimp only [V1, W1, hostOps0]
  after_results
  rfl

/-- The converted class cell states are the class cell states. -/
theorem cs_entry : (V1 m ρ c main_v3 : Mat 1024 512) = m ((c.tc : Thread nD τ).loc main_arg3) := by
  dsimp only [V1, W1, hostOps0]
  after_results
  rfl

/-- The converted input kernel is the input kernel. -/
theorem k_entry : (V1 m ρ c main_v4 : Mat 512 2048) = m ((c.tc : Thread nD τ).loc main_arg4) := by
  dsimp only [V1, W1, hostOps0]
  after_results
  rfl

/-- The converted recurrent kernel is the recurrent kernel. -/
theorem rk_entry : (V1 m ρ c main_v5 : Mat 512 2048) = m ((c.tc : Thread nD τ).loc main_arg5) := by
  dsimp only [V1, W1, hostOps0]
  after_results
  rfl

/-- A length-`a` array cast to the row `[1, a]` reads, at `(u, j)`, the operand at `j`, whatever the unit coordinate `u`. -/
theorem shapeCast_a_1a_apply {α : Type} {a : ℕ} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

/-- The reshaped bias at `(0, j)` is the bias at `j`. -/
theorem bias_entry (j : Fin 2048) :
    (V1 m ρ c main_v0 : (⟨2, ![1, 2048]⟩ : Shape).Idx → EReal) (ix2 (0 : Fin 1) j)
      = (m ((c.tc : Thread nD τ).loc main_arg6) : Row 2048) (ix1 j) := by
  have e : (V1 m ρ c main_v0 : (⟨2, ![1, 2048]⟩ : Shape).Idx → EReal)
      = shapeCast ⟨2, ![1, 2048]⟩ (m ((c.tc : Thread nD τ).loc main_arg6) : Row 2048) Facts₀.shapeCasts_S2048_S1x2048 := by
    dsimp only [V1, W1, hostOps0]
    after_results
    rfl
  rw [e]
  exact shapeCast_a_1a_apply _ _ 0 j

/-- The first region does not touch the class hidden states: after it they are as launched. -/
theorem hs_entry2 : (V2 m ρ c main_arg2 : Mat 1024 512) = m ((c.tc : Thread nD τ).loc main_arg2) :=
  calc (V2 m ρ c main_arg2 : Mat 1024 512)
    _ = W1 m ρ c (Proc.devRef .tc main_arg2) := W2_of_ne m ρ c main_arg2 (by decide)
    _ = W0 m ρ c (Proc.devRef .tc main_arg2) :=
        StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c.tc : Thread nD τ).loc main_arg2) := rfl

/-- The first region does not touch the class cell states: after it they are as launched. -/
theorem cs_entry2 : (V2 m ρ c main_arg3 : Mat 1024 512) = m ((c.tc : Thread nD τ).loc main_arg3) :=
  calc (V2 m ρ c main_arg3 : Mat 1024 512)
    _ = W1 m ρ c (Proc.devRef .tc main_arg3) := W2_of_ne m ρ c main_arg3 (by decide)
    _ = W0 m ρ c (Proc.devRef .tc main_arg3) :=
        StableHlo.after_of_forall_not_mem (b := Proc.devRef .tc main_arg3) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c.tc : Thread nD τ).loc main_arg3) := rfl

/-- After the first region its first result, the new hidden row states, holds what the region's write-backs leave. -/
theorem hidden_entry2 : V2 m ρ c main_v6_0 = (dat0 (V1 m ρ) c).arrAt 7 cfg0.N := W2_arr m ρ c 7

/-- After the first region its second result, the new cell row states, holds what the region's write-backs leave. -/
theorem cell_entry2 : V2 m ρ c main_v6_1 = (dat0 (V1 m ρ) c).arrAt 8 cfg0.N := W2_arr m ρ c 8

/-- After the first region its third result, the weights, holds what the region's write-backs leave. -/
theorem weights_entry2 : V2 m ρ c main_v6_2 = (dat0 (V1 m ρ) c).arrAt 9 cfg0.N := W2_arr m ρ c 9

end Cert.KernelIdeal.Entry

end
-- ==== Proof.Region1Defs.lean ====
/-
  The second region's loop trips, named.

  The body keeps a running maximum over the 128 batch rows in four trips of 32 rows. Trip `k` reads rows 32·k … 32·k+31
  of the row states and of the weight block. One trip's update of the running maximum is named here as a function of the
  three blocks the body reads, once for the hidden-state loop and once for the cell-state loop.
-/
import proofs.«108384_j23502061044385_2_alg».proof.Proof.Gen.KernelIdeal.Skeleton
import Idealize.ShloMosaic.Lib.Pipeline.FrameBody

noncomputable section

namespace Cert.KernelIdeal.Region1

open Cert.KernelIdeal Cert.KernelIdeal.Gen
open Idealize.ShloMosaic
open Idealize.SL Idealize.SL.Sem

variable {F : FTy → Type} [FloatOps F]

/-- Both loops make four trips. -/
theorem trips_h : k1_t1_loop.trips = 4 := by decide +kernel
theorem trips_c : k1_t2_loop.trips = 4 := by decide +kernel

/-- Trip number `n` of the first loop. -/
def tripH (n : ℕ) (h : n < 4) : Fin k1_t1_loop.trips := ⟨n, trips_h ▸ h⟩
/-- Trip number `n` of the second loop. -/
def tripC (n : ℕ) (h : n < 4) : Fin k1_t2_loop.trips := ⟨n, trips_c ▸ h⟩

/-- One trip of the first loop on the blocks `A` (class hidden states), `B` (row hidden states), `W` (weights): the running
    maximum `acc` against the chunk of 32 rows the trip reads. -/
def chunkStepH (A B : Vec F S128x512 .f32) (W : Vec F S128x128 .f32) (k : Fin k1_t1_loop.trips) (acc : FVec F S128x512 .f32) :
    FVec F S128x512 .f32 :=
  k1_pay2 A acc (View.ld B (Rect.unit (s := S128x512) (k1_off1 k) S32x512.size (k1_off1_inb k)))
    (View.ld W (Rect.unit (s := S128x128) (k1_off2 k) S32x128.size (k1_off2_inb k)))

/-- One trip of the second loop, on the cell states. -/
def chunkStepC (A B : Vec F S128x512 .f32) (W : Vec F S128x128 .f32) (k : Fin k1_t2_loop.trips) (acc : FVec F S128x512 .f32) :
    FVec F S128x512 .f32 :=
  k1_pay5 A acc (View.ld B (Rect.unit (s := S128x512) (k1_off3 k) S32x512.size (k1_off3_inb k)))
    (View.ld W (Rect.unit (s := S128x128) (k1_off4 k) S32x128.size (k1_off4_inb k)))

/-- The first output's buffer at a point, from its three blocks: the class-state block plus the running maximum after four
    trips from the −∞ array. -/
def pointH (A B : Vec F S128x512 .f32) (W : Vec F S128x128 .f32) : FVec F S128x512 .f32 :=
  k1_pay3 A (chunkStepH A B W (tripH 3 (by decide)) (chunkStepH A B W (tripH 2 (by decide))
    (chunkStepH A B W (tripH 1 (by decide)) (chunkStepH A B W (tripH 0 (by decide)) (k1_pay1 (F := F))))))

/-- The second output's buffer at a point, from its three blocks. -/
def pointC (A B : Vec F S128x512 .f32) (W : Vec F S128x128 .f32) : FVec F S128x512 .f32 :=
  k1_pay6 A (chunkStepC A B W (tripC 3 (by decide)) (chunkStepC A B W (tripC 2 (by decide))
    (chunkStepC A B W (tripC 1 (by decide)) (chunkStepC A B W (tripC 0 (by decide)) (k1_pay4 (F := F))))))

end Cert.KernelIdeal.Region1

end
-- ==== Proof.Region1Pieces.lean ====
/-
  What the second region's body leaves in its two output buffers at one grid point, as a function of the blocks it reads.

  The body loads a block `A` of 128 class states, starts a running maximum at −∞ in every entry, and makes four trips;
  trip `k` reads rows 32·k … 32·k+31 of the row states and of the weight block and replaces the running maximum by the
  larger of itself and that chunk's largest weighted difference from `A`. It stores `A` plus the final running maximum.
  The same again for the cell states into the second output. The trips' yields and the stored pieces are found by the
  symbolic run; here each is opened once: one trip is the named step, the carried value after the loop is four nested
  steps, and the stored value is the named function of the point's three blocks.
-/
import proofs.«108384_j23502061044385_2_alg».proof.Proof.Gen.KernelIdeal.Frame
import proofs.«108384_j23502061044385_2_alg».proof.Proof.Region1Defs
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_offsets : (![0, 0] : Fin 2 → Nat) = fun _ => 0 := funext fun a => by fin_cases a <;> rfl

/-- What one trip of the first loop yields: the trip's definition opened once. -/
theorem tripH_value (𝒱 : Variants) (c : Dev nD) (bd : Option 𝒱.V) (i : grid1.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S128x512 .f32) (harg7 : arg7.IsWhole) (v0 : Vec F S128x512 .f32) (X_arg3 : BufTy.Contents (Elt F) arg3.view.ty) (X_arg5 : BufTy.Contents (Elt F) arg5.view.ty) (k : Fin k1_t1_loop.trips) (acc : FVec F S128x512 .f32) :
    tripR_k1_t1 (F := F) 𝒱 c bd i arg1 harg1 arg2 harg2 arg3 harg3 arg4 harg4 arg5 harg5 arg6 harg6 arg7 harg7 v0 X_arg3 X_arg5 k acc
      = k1_pay2 v0 acc (View.readAt (Elt F) arg3.view (Rect.unit (s := S128x512) (k1_off1 k) S32x512.size (k1_off1_inb k)).toLoadRect X_arg3)
          (View.readAt (Elt F) arg5.view (Rect.unit (s := S128x128) (k1_off2 k) S32x128.size (k1_off2_inb k)).toLoadRect X_arg5) := by
  unfold tripR_k1_t1 trip_k1_t1
  rfl

/-- What one trip of the second loop yields. -/
theorem tripC_value (𝒱 : Variants) (c : Dev nD) (bd : Option 𝒱.V) (i : grid1.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S128x512 .f32) (harg7 : arg7.IsWhole) (v1 : Vec F S128x512 .f32) (X_arg4 : BufTy.Contents (Elt F) arg4.view.ty) (X_arg5 : BufTy.Contents (Elt F) arg5.view.ty) (k : Fin k1_t2_loop.trips) (acc : FVec F S128x512 .f32) :
    tripR_k1_t2 (F := F) 𝒱 c bd i arg1 harg1 arg2 harg2 arg3 harg3 arg4 harg4 arg5 harg5 arg6 harg6 arg7 harg7 v1 X_arg4 X_arg5 k acc
      = k1_pay5 v1 acc (View.readAt (Elt F) arg4.view (Rect.unit (s := S128x512) (k1_off3 k) S32x512.size (k1_off3_inb k)).toLoadRect X_arg4)
          (View.readAt (Elt F) arg5.view (Rect.unit (s := S128x128) (k1_off4 k) S32x128.size (k1_off4_inb k)).toLoadRect X_arg5) := by
  unfold tripR_k1_t2 trip_k1_t2
  rfl

/-- The carried value after all four trips of the first loop: four nested trips from the initial value. -/
theorem carriedH_four (𝒱 : Variants) (c : Dev nD) (bd : Option 𝒱.V) (i : grid1.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S128x512 .f32) (harg7 : arg7.IsWhole) (v0 : Vec F S128x512 .f32) (X_arg3 : BufTy.Contents (Elt F) arg3.view.ty) (X_arg5 : BufTy.Contents (Elt F) arg5.view.ty) (init : FVec F S128x512 .f32) :
    st_k1_t1 (F := F) 𝒱 c bd i arg1 harg1 arg2 harg2 arg3 harg3 arg4 harg4 arg5 harg5 arg6 harg6 arg7 harg7 v0 X_arg3 X_arg5 init 4
      = tripR_k1_t1 (F := F) 𝒱 c bd i arg1 harg1 arg2 harg2 arg3 harg3 arg4 harg4 arg5 harg5 arg6 harg6 arg7 harg7 v0 X_arg3 X_arg5 (tripH 3 (by decide))
          (tripR_k1_t1 (F := F) 𝒱 c bd i arg1 harg1 arg2 harg2 arg3 harg3 arg4 harg4 arg5 harg5 arg6 harg6 arg7 harg7 v0 X_arg3 X_arg5 (tripH 2 (by decide))
            (tripR_k1_t1 (F := F) 𝒱 c bd i arg1 harg1 arg2 harg2 arg3 harg3 arg4 harg4 arg5 harg5 arg6 harg6 arg7 harg7 v0 X_arg3 X_arg5 (tripH 1 (by decide))
              (tripR_k1_t1 (F := F) 𝒱 c bd i arg1 harg1 arg2 harg2 arg3 harg3 arg4 harg4 arg5 harg5 arg6 harg6 arg7 harg7 v0 X_arg3 X_arg5 (tripH 0 (by decide)) init))) := by
  have e3 := st_k1_t1_succ (F := F) 𝒱 c bd i arg1 harg1 arg2 harg2 arg3 harg3 arg4 harg4 arg5 harg5 arg6 harg6 arg7 harg7 v0 X_arg3 X_arg5 init (tripH 3 (by decide))
  have e2 := st_k1_t1_succ (F := F) 𝒱 c bd i arg1 harg1 arg2 harg2 arg3 harg3 arg4 harg4 arg5 harg5 arg6 harg6 arg7 harg7 v0 X_arg3 X_arg5 init (tripH 2 (by decide))
  have e1 := st_k1_t1_succ (F := F) 𝒱 c bd i arg1 harg1 arg2 harg2 arg3 harg3 arg4 harg4 arg5 harg5 arg6 harg6 arg7 harg7 v0 X_arg3 X_arg5 init (tripH 1 (by decide))
  have e0 := st_k1_t1_succ (F := F) 𝒱 c bd i arg1 harg1 arg2 harg2 arg3 harg3 arg4 harg4 arg5 harg5 arg6 harg6 arg7 harg7 v0 X_arg3 X_arg5 init (tripH 0 (by decide))
  exact e3.trans (congrArg (tripR_k1_t1 (F := F) 𝒱 c bd i arg1 harg1 arg2 harg2 arg3 harg3 arg4 harg4 arg5 harg5 arg6 harg6 arg7 harg7 v0 X_arg3 X_arg5 (tripH 3 (by decide)))
    (e2.trans (congrArg (tripR_k1_t1 (F := F) 𝒱 c bd i arg1 harg1 arg2 harg2 arg3 harg3 arg4 harg4 arg5 harg5 arg6 harg6 arg7 harg7 v0 X_arg3 X_arg5 (tripH 2 (by decide)))
      (e1.trans (congrArg (tripR_k1_t1 (F := F) 𝒱 c bd i arg1 harg1 arg2 harg2 arg3 harg3 arg4 harg4 arg5 harg5 arg6 harg6 arg7 harg7 v0 X_arg3 X_arg5 (tripH 1 (by decide))) e0)))))

/-- The carried value after all four trips of the second loop. -/
theorem carriedC_four (𝒱 : Variants) (c : Dev nD) (bd : Option 𝒱.V) (i : grid1.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S128x512 .f32) (harg7 : arg7.IsWhole) (v1 : Vec F S128x512 .f32) (X_arg4 : BufTy.Contents (Elt F) arg4.view.ty) (X_arg5 : BufTy.Contents (Elt F) arg5.view.ty) (init : FVec F S128x512 .f32) :
    st_k1_t2 (F := F) 𝒱 c bd i arg1 harg1 arg2 harg2 arg3 harg3 arg4 harg4 arg5 harg5 arg6 harg6 arg7 harg7 v1 X_arg4 X_arg5 init 4
      = tripR_k1_t2 (F := F) 𝒱 c bd i arg1 harg1 arg2 harg2 arg3 harg3 arg4 harg4 arg5 harg5 arg6 harg6 arg7 harg7 v1 X_arg4 X_arg5 (tripC 3 (by decide))
          (tripR_k1_t2 (F := F) 𝒱 c bd i arg1 harg1 arg2 harg2 arg3 harg3 arg4 harg4 arg5 harg5 arg6 harg6 arg7 harg7 v1 X_arg4 X_arg5 (tripC 2 (by decide))
            (tripR_k1_t2 (F := F) 𝒱 c bd i arg1 harg1 arg2 harg2 arg3 harg3 arg4 harg4 arg5 harg5 arg6 harg6 arg7 harg7 v1 X_arg4 X_arg5 (tripC 1 (by decide))
              (tripR_k1_t2 (F := F) 𝒱 c bd i arg1 harg1 arg2 harg2 arg3 harg3 arg4 harg4 arg5 harg5 arg6 harg6 arg7 harg7 v1 X_arg4 X_arg5 (tripC 0 (by decide)) init))) := by
  have e3 := st_k1_t2_succ (F := F) 𝒱 c bd i arg1 harg1 arg2 harg2 arg3 harg3 arg4 harg4 arg5 harg5 arg6 harg6 arg7 harg7 v1 X_arg4 X_arg5 init (tripC 3 (by decide))
  have e2 := st_k1_t2_succ (F := F) 𝒱 c bd i arg1 harg1 arg2 harg2 arg3 harg3 arg4 harg4 arg5 harg5 arg6 harg6 arg7 harg7 v1 X_arg4 X_arg5 init (tripC 2 (by decide))
  have e1 := st_k1_t2_succ (F := F) 𝒱 c bd i arg1 harg1 arg2 harg2 arg3 harg3 arg4 harg4 arg5 harg5 arg6 harg6 arg7 harg7 v1 X_arg4 X_arg5 init (tripC 1 (by decide))
  have e0 := st_k1_t2_succ (F := F) 𝒱 c bd i arg1 harg1 arg2 harg2 arg3 harg3 arg4 harg4 arg5 harg5 arg6 harg6 arg7 harg7 v1 X_arg4 X_arg5 init (tripC 0 (by decide))
  exact e3.trans (congrArg (tripR_k1_t2 (F := F) 𝒱 c bd i arg1 harg1 arg2 harg2 arg3 harg3 arg4 harg4 arg5 harg5 arg6 harg6 arg7 harg7 v1 X_arg4 X_arg5 (tripC 3 (by decide)))
    (e2.trans (congrArg (tripR_k1_t2 (F := F) 𝒱 c bd i arg1 harg1 arg2 harg2 arg3 harg3 arg4 harg4 arg5 harg5 arg6 harg6 arg7 harg7 v1 X_arg4 X_arg5 (tripC 2 (by decide)))
      (e1.trans (congrArg (tripR_k1_t2 (F := F) 𝒱 c bd i arg1 harg1 arg2 harg2 arg3 harg3 arg4 harg4 arg5 harg5 arg6 harg6 arg7 harg7 v1 X_arg4 X_arg5 (tripC 1 (by decide))) e0)))))

/-- The first output's buffer after the body is the point's function of the three blocks it reads. -/
theorem out_hidden (c : Dev nD) (i : grid1.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S128x512 .f32) (harg7 : arg7.IsWhole)
    (x0 : Vec F S128x512 .f32) (x1 : Vec F S128x512 .f32) (x2 : Vec F S128x512 .f32) (x3 : Vec F S128x512 .f32) (x4 : Vec F S128x128 .f32) :
    out1_A_5 c i arg1 harg1 arg2 harg2 arg3 harg3 arg4 harg4 arg5 harg5 arg6 harg6 arg7 harg7 x0 x1 x2 x3 x4 = pointH x0 x2 x4 := by
  unfold out1_A_5
  rw [View.read_writes_eq_canon _ _ _ (cover1_A_5 c i arg1 harg1 arg2 harg2 arg3 harg3 arg4 harg4 arg5 harg5 arg6 harg6 arg7 harg7 x0 x1 x2 x3 x4)]
  unfold kernelRun1_A
  dsimp only
  sl_unfold_run_names
  rw [View.canon_unit_zero zero_offsets]
  simp only [View.readAt_eq_ld, harg1.read_unread, View.ld_unit_zero (S := S128x512) zero_offsets]
  rw [show Scf.trips k1_t1_loop.lb k1_t1_loop.ub k1_t1_loop.st = 4 from trips_h, carriedH_four]
  simp only [tripH_value, View.readAt_eq_ld, harg3.read_unread, harg5.read_unread]
  rfl

/-- The second output's buffer after the body is the point's function of the three blocks it reads. -/
theorem out_cell (c : Dev nD) (i : grid1.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S128x512 .f32) (harg7 : arg7.IsWhole)
    (x0 : Vec F S128x512 .f32) (x1 : Vec F S128x512 .f32) (x2 : Vec F S128x512 .f32) (x3 : Vec F S128x512 .f32) (x4 : Vec F S128x128 .f32) :
    out1_A_6 c i arg1 harg1 arg2 harg2 arg3 harg3 arg4 harg4 arg5 harg5 arg6 harg6 arg7 harg7 x0 x1 x2 x3 x4 = pointC x1 x3 x4 := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  sl_unfold_run_names
  rw [View.canon_unit_zero zero_offsets]
  simp only [View.readAt_eq_ld, harg2.read_unread, View.ld_unit_zero (S := S128x512) zero_offsets]
  rw [show Scf.trips k1_t2_loop.lb k1_t2_loop.ub k1_t2_loop.st = 4 from trips_c, carriedC_four]
  simp only [tripC_value, View.readAt_eq_ld, harg4.read_unread, harg5.read_unread]
  rfl

end Cert.KernelIdeal.Region1

end
-- ==== Proof.LibRank3Rows.lean ====
/-
  Rank-3 arrays read at an entry: the casts that add a unit axis in the middle or at the end, the broadcasts of an
  array with unit axes to the full [a, b, c], and the maximum and the sum over the last axis at the ideal values.

  A cast keeps the row-major position, so [a, c] → [a, 1, c] at (i, 0, k) reads (i, k), and [a, b] → [a, b, 1] at
  (i, j, 0) reads (i, j). A broadcast reads the operand at the same coordinates, 0 on the operand's unit axes. The
  reduced index (i, j) with the last coordinate k put back is (i, j, k), so the maximum over the last axis at (i, j) is
  the fold of max from the accumulator's value over k of the entry (i, j, k), and the sum is the sum over k.
-/
import Idealize.ShloMosaic.Lib.ValueIdx
import Idealize.ShloMosaic.Lib.Pipeline.Value
import Idealize.ShloMosaic.PureOps.Ideal.Laws

noncomputable section

namespace Cert.Rank3Rows

open Idealize.ShloMosaic Idealize.ShloMosaic.ValueIdx

variable {α : Type}

/-! ## Casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## Broadcasts to `[a, b, c]` -/

/-- `[a, 1, c]` broadcast to `[a, b, c]`: at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`: at `(i, j, k)` the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, 1, c]` broadcast to `[a, b, c]`: at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- `[a, b, 1]` broadcast to `[a, b, c]`: at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The last axis reduced -/

/-- The reduced index `(i, j)` with the last coordinate `k` put back is `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The maximum over the last axis at `(i, j)`: the fold of `max` from the accumulator's value over the row's entries. -/
theorem multiReduction_max_last {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (congrArg (fun f => (Finset.univ : Finset (Fin c)).fold max (Ideal.ofBits .f32 acc) f)
      (funext fun k => congrArg src (lift_last h i j k)))

/-- The sum over the last axis at `(i, j)`: the sum of the row's entries. -/
theorem multiReduction_add_last {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

end Cert.Rank3Rows

end
-- ==== Proof.ChunkEntry.lean ====
/-
  One trip of the scatter region read at an entry.

  The region holds a block of 32 rows: their new states `Bc` ([32, 512]) and their weights `Wc` ([32, 128]) for the 128
  classes of the tile, beside the tile's old class states `A` ([128, 512]). It forms the rank-3 array whose entry
  (r, n, u) is `Wc[r, n] · (Bc[r, u] − A[n, u])` — each operand cast to a rank-3 array with a unit axis and broadcast —,
  takes the maximum over the FIRST axis from −∞, and keeps the larger of that and the carried value. At (n, u) this is
  the carried value against the fold of max from ⊥ over the 32 rows of the weighted differences.
-/
import proofs.«108384_j23502061044385_2_alg».proof.Proof.Spec
import proofs.«108384_j23502061044385_2_alg».proof.Proof.Gen.KernelIdeal.Skeleton
import proofs.«108384_j23502061044385_2_alg».proof.Proof.LibRank3Rows
import proofs.«108384_j23502061044385_2_alg».proof.Proof.LibColumnLayout
import Idealize.ShloMosaic.Lib.ValueIdx
import Idealize.ShloMosaic.Lib.Pipeline.Value
import Idealize.ShloMosaic.PureOps.Ideal.Laws

noncomputable section

namespace Cert.ClassLstm.Kern

open Cert.KernelIdeal Cert.KernelIdeal.Gen Idealize.ShloMosaic Idealize.ShloMosaic.ValueIdx

/-! ## A leading unit axis, and the first axis reduced -/

/-- An `[a, b]` array cast to `[1, a, b]` reads, at `(z, i, j)`, the operand at `(i, j)`: the row-major position is kept. -/
theorem shapeCast_ab_1ab_apply {α : Type} {a b : ℕ} (x : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ x h (ix3 z i j) = x (ix2 i j) :=
  shapeCast_apply x h _ _ (by
    have hz : z.val = 0 := by omega
    rw [Shape.rowMajor_val_two, Shape.rowMajor_val_three]
    show i.val * b + j.val = (z.val * a + i.val) * b + j.val
    rw [hz, Nat.zero_mul, Nat.zero_add])

/-- The reduced index `(i, j)` with the first coordinate `k` put back is `(k, i, j)`. -/
theorem lift_first {a b c : ℕ} (h : (⟨3, ![a, b, c]⟩ : Shape).Reduces [0] (⟨2, ![b, c]⟩ : Shape)) (i : Fin b) (j : Fin c)
    (k : Fin ((⟨3, ![a, b, c]⟩ : Shape).size 0)) : h.lift (ix2 i j) k = ix3 (⟨k.val, k.isLt⟩ : Fin a) i j := by
  funext d; apply Fin.ext
  fin_cases d <;> rfl

/-- The maximum over the first axis at `(i, j)`: the fold of `max` from the accumulator's value over the column's entries. -/
theorem multiReduction_max_first {a b c : ℕ} (src : FVec Ideal ⟨3, ![a, b, c]⟩ .f32) (acc : BitVec 32)
    (h : (⟨3, ![a, b, c]⟩ : Shape).Reduces [0] (⟨2, ![b, c]⟩ : Shape)) (hφ : FKind.Formats .f32)
    (hacc : acc = FKind.maximumf.neutral .f32 hφ) (i : Fin b) (j : Fin c) :
    multiReduction .maximumf [0] ⟨2, ![b, c]⟩ src acc h hφ hacc (ix2 i j)
      = (Finset.univ : Finset (Fin a)).fold max (Ideal.ofBits .f32 acc) (fun k => src (ix3 k i j)) :=
  (Ideal.multiReduction_maximumf_single src acc h hφ hacc (ix2 i j)).trans
    (congrArg (fun f => (Finset.univ : Finset (Fin a)).fold max (Ideal.ofBits .f32 acc) f)
      (funext fun k => congrArg src (lift_first h i j k)))

/-! ## The region's trip -/

/-- The weighted difference array at `(r, n, u)`. -/
theorem weighted_diff_apply (A : Vec Ideal S128x512 .f32) (Bc : Vec Ideal S32x512 .f32) (Wc : Vec Ideal S32x128 .f32)
    (h20 : S32x512.ShapeCasts S32x1x512) (h21 : S128x512.ShapeCasts S1x128x512)
    (h22 : S32x1x512.Broadcasts S32x128x512) (h23 : S1x128x512.Broadcasts S32x128x512)
    (h25 : S32x128.ShapeCasts S32x128x1) (h26 : S32x128x1.Broadcasts S32x128x512)
    (r : Fin 32) (n : Fin 128) (u : Fin 512) :
    mulf (F := Ideal) (φ := .f32) (broadcastTo S32x128x512 (shapeCast S32x128x1 Wc h25) h26)
        (subf (broadcastTo S32x128x512 (shapeCast S32x1x512 Bc h20) h22)
          (broadcastTo S32x128x512 (shapeCast S1x128x512 A h21) h23)) (ix3 r n u)
      = Wc (ix2 r n) * (Bc (ix2 r u) - A (ix2 n u)) := by
  show broadcastTo S32x128x512 (shapeCast S32x128x1 Wc h25) h26 (ix3 r n u)
      * (broadcastTo S32x128x512 (shapeCast S32x1x512 Bc h20) h22 (ix3 r n u)
        - broadcastTo S32x128x512 (shapeCast S1x128x512 A h21) h23 (ix3 r n u)) = _
  rw [Cert.Rank3Rows.broadcastTo_ab1_abc_apply, Cert.Rank3Rows.broadcastTo_a1c_abc_apply,
    Cert.Rank3Rows.broadcastTo_1bc_abc_apply, Cert.Rank3Rows.shapeCast_ab_ab1_apply,
    Cert.Rank3Rows.shapeCast_ac_a1c_apply, shapeCast_ab_1ab_apply]

/-- One trip at `(n, u)`: the carried value against the largest weighted difference over the block's 32 rows. -/
theorem chunk_entry (A : Vec Ideal S128x512 .f32) (acc : FVec Ideal S128x512 .f32) (Bc : Vec Ideal S32x512 .f32)
    (Wc : Vec Ideal S32x128 .f32) (n : Fin 128) (u : Fin 512) :
    k1_pay2 (F := Ideal) A acc Bc Wc (ix2 n u)
      = max (acc (ix2 n u))
          ((Finset.univ : Finset (Fin 32)).fold max ⊥ (fun r => Wc (ix2 r n) * (Bc (ix2 r u) - A (ix2 n u)))) := by
  unfold k1_pay2
  rw [shapeCast_self, shapeCast_self]
  refine congrArg (max (acc (ix2 n u))) ?_
  refine (multiReduction_max_first _ _ _ _ _ n u).trans ?_
  rw [Idealize.ShloMosaic.ColumnLayout.ofBits_neg_inf_f32]
  exact congrArg (fun f => (Finset.univ : Finset (Fin 32)).fold max ⊥ f)
    (funext fun r => weighted_diff_apply A Bc Wc _ _ _ _ _ _ r n u)

/-- The second copy of the region (the cell states' pass) is the same term. -/
theorem chunk_entry' (A : Vec Ideal S128x512 .f32) (acc : FVec Ideal S128x512 .f32) (Bc : Vec Ideal S32x512 .f32)
    (Wc : Vec Ideal S32x128 .f32) (n : Fin 128) (u : Fin 512) :
    k1_pay5 (F := Ideal) A acc Bc Wc (ix2 n u)
      = max (acc (ix2 n u))
          ((Finset.univ : Finset (Fin 32)).fold max ⊥ (fun r => Wc (ix2 r n) * (Bc (ix2 r u) - A (ix2 n u)))) :=
  chunk_entry A acc Bc Wc n u

end Cert.ClassLstm.Kern

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.Laws.lean ====
/-
  The laws of the extended reals that both programs' common function rests on.

  Every quantity the function builds from real inputs is again a real number: the temperature is a finite binary32
  value; a row's largest scaled logit is one of its (finitely many, at least one) scaled logits; the exponentials are
  positive reals, so their sum is a positive real and each softmax weight a real quotient; the gathered states and the
  preactivations are finite sums of products of reals; the logistic and the hyperbolic tangent of a real are reals.

  On real numbers the two spellings of the class-state update agree: a·(1 − w) + h·w = a + w·(h − a) entry by entry, and
  adding a real constant commutes with the largest value over a nonempty finite family.

  Last, the largest value over 128 entries is the largest of the largest values over its four consecutive runs of 32.
-/
import proofs.«108384_j23502061044385_2_alg».proof.Proof.Spec
import proofs.«108384_j23502061044385_2_alg».proof.Proof.LibERealSum

noncomputable section

open scoped BigOperators

namespace Cert.ClassLstm

open Idealize.ShloMosaic Idealize.ShloMosaic.ValueIdx Cert.Lib.ERealSum

/-! ### Folding the maximum from the bottom is the finite supremum -/

/-- A fold of the maximum from the bottom element is the finite supremum. -/
theorem fold_max_eq_sup {ι : Type*} (s : Finset ι) (f : ι → EReal) : s.fold max ⊥ f = s.sup f := rfl

/-- The embedding of the reals commutes with the maximum of two. -/
theorem coe_max (x y : ℝ) : ((max x y : ℝ) : EReal) = max (x : EReal) (y : EReal) :=
  EReal.coe_strictMono.monotone.map_max

/-- Over a nonempty finite family of reals, the fold of the maximum from the bottom is the embedded largest real. -/
theorem fold_max_coe {ι : Type*} (s : Finset ι) (hs : s.Nonempty) (g : ι → ℝ) :
    s.fold max ⊥ (fun i => (g i : EReal)) = ((s.sup' hs g : ℝ) : EReal) := by
  rw [fold_max_eq_sup, ← Finset.sup'_eq_sup hs]
  exact (Finset.apply_sup'_eq_sup'_comp hs (fun x : ℝ => (x : EReal)) coe_max).symm

/-! ### Closure of the real numbers under the operations used -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_finset_sum]; exact Finset.sum_congr rfl fun i _ => hg i⟩

theorem real_fold_max {ι : Type*} (s : Finset ι) (hs : s.Nonempty) (f : ι → EReal)
    (h : ∀ i, ∃ r : ℝ, f i = (r : EReal)) : ∃ r : ℝ, s.fold max ⊥ f = (r : EReal) := by
  choose g hg using h
  obtain rfl : f = fun i => (g i : EReal) := funext hg
  exact ⟨_, fold_max_coe s hs g⟩

theorem real_logistic {x : EReal} (hx : ∃ r : ℝ, x = (r : EReal)) : ∃ r : ℝ, Ideal.logistic x = (r : EReal) := by
  obtain ⟨a, rfl⟩ := hx; exact ⟨_, Ideal.logistic_coe a⟩

theorem real_tanh {x : EReal} (hx : ∃ r : ℝ, x = (r : EReal)) : ∃ r : ℝ, Ideal.tanh x = (r : EReal) := by
  obtain ⟨a, rfl⟩ := hx; exact ⟨_, Ideal.tanh_coe a⟩

/-! ### The quantities of the function are real -/

/-- The temperature is a real number: its binary32 word has a finite exponent field. -/
theorem temp_real : ∃ r : ℝ, temp = (r : EReal) := by
  refine ⟨9765625 * 2 ^ 10, ?_⟩
  simp [temp, Ideal.ofBits, Ideal.ieee]

/-- Every scaled logit is real. -/
theorem scaled_real (l : Mat 128 1024) (hl : AllReal l) (b : Fin 128) (j : Fin 1024) :
    ∃ r : ℝ, l (ix2 b j) * temp = (r : EReal) := real_mul (hl _) temp_real

/-- A row's largest scaled logit is real. -/
theorem rowTop_real (l : Mat 128 1024) (hl : AllReal l) (b : Fin 128) : ∃ r : ℝ, rowTop l b = (r : EReal) :=
  real_fold_max _ Finset.univ_nonempty _ (scaled_real l hl b)

theorem weight_real (l : Mat 128 1024) (hl : AllReal l) (b : Fin 128) (n : Fin 1024) :
    ∃ r : ℝ, weight l b n = (r : EReal) := by
  obtain ⟨m, hm⟩ := rowTop_real l hl b
  choose g hg using scaled_real l hl b
  have hexp : ∀ j, Ideal.exp (l (ix2 b j) * temp - rowTop l b) = ((Real.exp (g j - m) : ℝ) : EReal) := fun j => by
    rw [hg, hm, ← EReal.coe_sub, Ideal.exp_coe]
  have hpos : (0 : ℝ) < ∑ j : Fin 1024, Real.exp (g j - m) :=
    Finset.sum_pos (fun j _ => Real.exp_pos _) Finset.univ_nonempty
  unfold weight
  simp only [hexp]
  rw [← coe_finset_sum, Ideal.div_coe hpos.ne', ← EReal.coe_mul]
  exact ⟨_, rfl⟩

theorem gathered_real (l : Mat 128 1024) (s : Mat 1024 512) (hl : AllReal l) (hs : AllReal s) (b : Fin 128)
    (u : Fin 512) : ∃ r : ℝ, gathered l s b u = (r : EReal) :=
  real_sum _ _ fun n => real_mul (weight_real l hl b n) (hs _)

theorem preact_real (x : Mat 128 512) (l : Mat 128 1024) (hs : Mat 1024 512) (k rk : Mat 512 2048) (bias : Row 2048)
    (hx : AllReal x) (hl : AllReal l) (hhs : AllReal hs) (hk : AllReal k) (hrk : AllReal rk) (hbias : AllReal bias)
    (b : Fin 128) (j : Fin 2048) : ∃ r : ℝ, preact x l hs k rk bias b j = (r : EReal) :=
  real_add (real_add (real_sum _ _ fun f => real_mul (hx _) (hk _))
    (real_sum _ _ fun u => real_mul (gathered_real l hs hl hhs b u) (hrk _))) (hbias _)

theorem cell_real (x : Mat 128 512) (l : Mat 128 1024) (hs cs : Mat 1024 512) (k rk : Mat 512 2048) (bias : Row 2048)
    (hx : AllReal x) (hl : AllReal l) (hhs : AllReal hs) (hcs : AllReal cs) (hk : AllReal k) (hrk : AllReal rk)
    (hbias : AllReal bias) (b : Fin 128) (u : Fin 512) : ∃ r : ℝ, cell x l hs cs k rk bias b u = (r : EReal) :=
  real_add
    (real_mul (real_logistic (preact_real x l hs k rk bias hx hl hhs hk hrk hbias b _)) (gathered_real l cs hl hcs b u))
    (real_mul (real_logistic (preact_real x l hs k rk bias hx hl hhs hk hrk hbias b _))
      (real_tanh (preact_real x l hs k rk bias hx hl hhs hk hrk hbias b _)))

theorem hidden_real (x : Mat 128 512) (l : Mat 128 1024) (hs cs : Mat 1024 512) (k rk : Mat 512 2048) (bias : Row 2048)
    (hx : AllReal x) (hl : AllReal l) (hhs : AllReal hs) (hcs : AllReal cs) (hk : AllReal k) (hrk : AllReal rk)
    (hbias : AllReal bias) (b : Fin 128) (u : Fin 512) : ∃ r : ℝ, hidden x l hs cs k rk bias b u = (r : EReal) :=
  real_mul (real_logistic (preact_real x l hs k rk bias hx hl hhs hk hrk hbias b _))
    (real_tanh (cell_real x l hs cs k rk bias hx hl hhs hcs hk hrk hbias b u))

/-! ### The two spellings of the class-state update agree on real numbers -/

theorem blend_eq (A : Mat 1024 512) (B : Fin 128 → Fin 512 → EReal) (w : Fin 128 → Fin 1024 → EReal) (hA : AllReal A)
    (hB : ∀ b u, ∃ r : ℝ, B b u = (r : EReal)) (hw : ∀ b n, ∃ r : ℝ, w b n = (r : EReal)) (n : Fin 1024)
    (u : Fin 512) : blendMix A B w n u = blendAdd A B w n u := by
  obtain ⟨a, ha⟩ := hA (ix2 n u)
  choose Br hBr using hB
  choose wr hwr using hw
  have hmix : (fun b => A (ix2 n u) * (1 - w b n) + B b u * w b n)
      = fun b => ((a + wr b n * (Br b u - a) : ℝ) : EReal) := funext fun b => by
    rw [ha, hBr, hwr, ← EReal.coe_one, ← EReal.coe_sub, ← EReal.coe_mul, ← EReal.coe_mul, ← EReal.coe_add]
    exact congrArg _ (by ring)
  have hadd : (fun b => w b n * (B b u - A (ix2 n u))) = fun b => ((wr b n * (Br b u - a) : ℝ) : EReal) :=
    funext fun b => by rw [ha, hBr, hwr, ← EReal.coe_sub, ← EReal.coe_mul]
  unfold blendMix blendAdd
  rw [hmix, hadd, fold_max_coe _ Finset.univ_nonempty, fold_max_coe _ Finset.univ_nonempty, ha, ← EReal.coe_add]
  refine congrArg _ ?_
  exact (Finset.apply_sup'_eq_sup'_comp Finset.univ_nonempty (fun x : ℝ => a + x)
    (fun x y => (max_add_add_left a x y).symm)).symm

/-! ### The largest of 128 entries by four runs of 32 -/

/-- The largest entry of the `k`-th run of 32 consecutive entries. -/
def chunkTop (f : Fin 128 → EReal) (k : Fin 4) : EReal :=
  (Finset.univ : Finset (Fin 32)).fold max ⊥
    (fun r => f ⟨32 * k.val + r.val, by have := k.isLt; have := r.isLt; omega⟩)

/-- An entry is at most the largest of its run. -/
theorem le_chunkTop (f : Fin 128 → EReal) (k : Fin 4) (r : Fin 32) :
    f ⟨32 * k.val + r.val, by have := k.isLt; have := r.isLt; omega⟩ ≤ chunkTop f k :=
  Finset.le_sup (f := fun r : Fin 32 => f ⟨32 * k.val + r.val, by have := k.isLt; have := r.isLt; omega⟩)
    (Finset.mem_univ r)

theorem fold_max_chunks (f : Fin 128 → EReal) :
    max (max (max (max ⊥ (chunkTop f 0)) (chunkTop f 1)) (chunkTop f 2)) (chunkTop f 3)
      = (Finset.univ : Finset (Fin 128)).fold max ⊥ f := by
  rw [fold_max_eq_sup]
  apply le_antisymm
  · have hk : ∀ k : Fin 4, chunkTop f k ≤ Finset.univ.sup f := fun k =>
      Finset.sup_le fun r _ => Finset.le_sup (Finset.mem_univ _)
    exact max_le (max_le (max_le (max_le bot_le (hk 0)) (hk 1)) (hk 2)) (hk 3)
  · refine Finset.sup_le fun b _ => ?_
    have hb := b.isLt
    have hk : ∀ k : Fin 4,
        chunkTop f k ≤ max (max (max (max ⊥ (chunkTop f 0)) (chunkTop f 1)) (chunkTop f 2)) (chunkTop f 3) := by
      intro k
      fin_cases k
      · exact le_max_of_le_left (le_max_of_le_left (le_max_of_le_left (le_max_right _ _)))
      · exact le_max_of_le_left (le_max_of_le_left (le_max_right _ _))
      · exact le_max_of_le_left (le_max_right _ _)
      · exact le_max_right _ _
    have hsplit : b = ⟨32 * (⟨b.val / 32, by omega⟩ : Fin 4).val + (⟨b.val % 32, by omega⟩ : Fin 32).val, by
        simp only; omega⟩ := Fin.ext (by simp only; omega)
    calc f b = f ⟨32 * (⟨b.val / 32, by omega⟩ : Fin 4).val + (⟨b.val % 32, by omega⟩ : Fin 32).val, by
            simp only; omega⟩ := congrArg f hsplit
      _ ≤ chunkTop f ⟨b.val / 32, by omega⟩ := le_chunkTop f _ _
      _ ≤ _ := hk _

end Cert.ClassLstm

end
-- ==== Proof.PointEntry.lean ====
/-
  A point of the scatter region read at an entry.

  At a grid point the region holds a tile of 128 classes' old states `A` ([128, 512]), all 128 rows' new states `B`
  ([128, 512]) and the rows' weights `W` for the tile's classes ([128, 128]). Its loop makes four trips; trip `k` loads rows
  32·k … 32·k+31 of `B` and of `W` and keeps, entry by entry, the larger of the carried value and the largest weighted
  difference `W[b, n] · (B[b, u] − A[n, u])` over those rows, starting from −∞. The buffer written is `A` plus the carried
  value after the four trips. Since the largest of 128 entries is the largest of the largest over the four runs of 32, the
  entry (n, u) written is `A[n, u]` plus the largest weighted difference over all 128 rows.
-/
import proofs.«108384_j23502061044385_2_alg».proof.Proof.Spec
import proofs.«108384_j23502061044385_2_alg».proof.Proof.Region1Defs
import proofs.«108384_j23502061044385_2_alg».proof.Proof.ChunkEntry
import proofs.«108384_j23502061044385_2_alg».proof.Proof.Laws
import Idealize.ShloMosaic.Lib.ValueIdx
import Idealize.ShloMosaic.Lib.Pipeline.Value
import Idealize.ShloMosaic.Lib.Pipeline.FrameBody

noncomputable section

namespace Cert.ClassLstm.Kern

open Cert.KernelIdeal Cert.KernelIdeal.Gen Cert.KernelIdeal.Region1
open Idealize.ShloMosaic Idealize.ShloMosaic.ValueIdx
open Idealize.SL Idealize.SL.Sem

/-- A load of 32 full rows from row `32·kv` of a `[128, c]` array reads, at `(r, u)`, the array at `(32·kv + r, u)`. -/
theorem ld_rows {c : ℕ} (X : Vec Ideal ⟨2, ![128, c]⟩ .f32) (off : Fin 2 → ℕ) (kv : ℕ) (hoff : off = ![32 * kv, 0])
    (inb : ∀ a, off a + (![32, c] : Fin 2 → ℕ) a ≤ (⟨2, ![128, c]⟩ : Shape).size a) (r : Fin 32) (u : Fin c)
    (hk : 32 * kv + r.val < 128) :
    View.ld (Val := Elt Ideal) (e' := .f32) X (Rect.unit (s := ⟨2, ![128, c]⟩) off ![32, c] inb) (ix2 r u)
      = X (ix2 ⟨32 * kv + r.val, hk⟩ u) := by
  subst hoff
  refine congrArg X (funext fun a => Fin.ext ?_)
  match a with
  | ⟨0, _⟩ =>
    show 32 * kv + 1 * r.val = 32 * kv + r.val
    omega
  | ⟨1, _⟩ =>
    show 0 + 1 * u.val = u.val
    omega

/-- One trip of the first loop at `(n, u)`: the carried value against the largest weighted difference of the trip's run. -/
theorem chunkStepH_entry (A B : Vec Ideal S128x512 .f32) (W : Vec Ideal S128x128 .f32) (k : Fin k1_t1_loop.trips)
    (kk : Fin 4) (hk : k.val = kk.val) (acc : FVec Ideal S128x512 .f32) (n : Fin 128) (u : Fin 512) :
    chunkStepH (F := Ideal) A B W k acc (ix2 n u)
      = max (acc (ix2 n u)) (chunkTop (fun b => W (ix2 b n) * (B (ix2 b u) - A (ix2 n u))) kk) := by
  unfold chunkStepH
  refine (chunk_entry A acc _ _ n u).trans ?_
  refine congrArg (max (acc (ix2 n u))) ?_
  unfold chunkTop
  refine congrArg (fun f => Finset.fold max ⊥ f (Finset.univ : Finset (Fin 32))) (funext fun r => ?_)
  have hW := ld_rows W (k1_off2 k) kk.val ((k1_off2_eq k).trans (by rw [hk])) (k1_off2_inb k) r n
    (by have := kk.isLt; have := r.isLt; omega)
  have hB := ld_rows B (k1_off1 k) kk.val ((k1_off1_eq k).trans (by rw [hk])) (k1_off1_inb k) r u
    (by have := kk.isLt; have := r.isLt; omega)
  exact congrArg₂ (· * ·) hW (congrArg (· - A (ix2 n u)) hB)

/-- One trip of the second loop at `(n, u)`. -/
theorem chunkStepC_entry (A B : Vec Ideal S128x512 .f32) (W : Vec Ideal S128x128 .f32) (k : Fin k1_t2_loop.trips)
    (kk : Fin 4) (hk : k.val = kk.val) (acc : FVec Ideal S128x512 .f32) (n : Fin 128) (u : Fin 512) :
    chunkStepC (F := Ideal) A B W k acc (ix2 n u)
      = max (acc (ix2 n u)) (chunkTop (fun b => W (ix2 b n) * (B (ix2 b u) - A (ix2 n u))) kk) := by
  unfold chunkStepC
  refine (chunk_entry' A acc _ _ n u).trans ?_
  refine congrArg (max (acc (ix2 n u))) ?_
  unfold chunkTop
  refine congrArg (fun f => Finset.fold max ⊥ f (Finset.univ : Finset (Fin 32))) (funext fun r => ?_)
  have hW := ld_rows W (k1_off4 k) kk.val ((k1_off4_eq k).trans (by rw [hk])) (k1_off4_inb k) r n
    (by have := kk.isLt; have := r.isLt; omega)
  have hB := ld_rows B (k1_off3 k) kk.val ((k1_off3_eq k).trans (by rw [hk])) (k1_off3_inb k) r u
    (by have := kk.isLt; have := r.isLt; omega)
  exact congrArg₂ (· * ·) hW (congrArg (· - A (ix2 n u)) hB)

/-- The first output's buffer at `(n, u)`: the old class state plus the largest weighted difference over the 128 rows. -/
theorem pointH_entry (A B : Vec Ideal S128x512 .f32) (W : Vec Ideal S128x128 .f32) (n : Fin 128) (u : Fin 512) :
    pointH (F := Ideal) A B W (ix2 n u)
      = A (ix2 n u) + (Finset.univ : Finset (Fin 128)).fold max ⊥ (fun b => W (ix2 b n) * (B (ix2 b u) - A (ix2 n u))) := by
  unfold pointH
  refine congrArg (A (ix2 n u) + ·) ?_
  have h0 : k1_pay1 (F := Ideal) (ix2 n u) = ⊥ := Idealize.ShloMosaic.ColumnLayout.ofBits_neg_inf_f32
  rw [chunkStepH_entry A B W (tripH 3 _) 3 rfl, chunkStepH_entry A B W (tripH 2 _) 2 rfl,
    chunkStepH_entry A B W (tripH 1 _) 1 rfl, chunkStepH_entry A B W (tripH 0 _) 0 rfl, h0]
  exact fold_max_chunks _

/-- The second output's buffer at `(n, u)`. -/
theorem pointC_entry (A B : Vec Ideal S128x512 .f32) (W : Vec Ideal S128x128 .f32) (n : Fin 128) (u : Fin 512) :
    pointC (F := Ideal) A B W (ix2 n u)
      = A (ix2 n u) + (Finset.univ : Finset (Fin 128)).fold max ⊥ (fun b => W (ix2 b n) * (B (ix2 b u) - A (ix2 n u))) := by
  unfold pointC
  refine congrArg (A (ix2 n u) + ·) ?_
  have h0 : k1_pay4 (F := Ideal) (ix2 n u) = ⊥ := Idealize.ShloMosaic.ColumnLayout.ofBits_neg_inf_f32
  rw [chunkStepC_entry A B W (tripC 3 _) 3 rfl, chunkStepC_entry A B W (tripC 2 _) 2 rfl,
    chunkStepC_entry A B W (tripC 1 _) 1 rfl, chunkStepC_entry A B W (tripC 0 _) 0 rfl, h0]
  exact fold_max_chunks _

end Cert.ClassLstm.Kern

end
-- ==== Proof.Region1Array.lean ====
/-
  The second region's two output arrays from what each grid point writes back.

  The region has eight grid points. Point t stages rows 128·t … 128·t+127 of the two class-state arrays (blocks of 128
  rows, all 512 columns, at block index (t, 0)), the two row-state arrays whole, and columns 128·t … 128·t+127 of the
  weights (a block of all 128 rows at block index (0, t)); it writes back rows 128·t … 128·t+127 of each output array.
  An element at place (n, u) of a block at block index (p, q) sits in its array at (128·p + n, (block width)·q + u).

  Given that what a point stores at (n, u) of an output block is the class state plus the largest weighted difference
  over the batch rows, read off the point's blocks, each output array is that same expression of the arrays the region
  finds, at every entry: the eight row blocks cover the array (row r is in the block of point r / 128), and what point
  t writes back is block t of one function of the arrays.
-/
import proofs.«108384_j23502061044385_2_alg».proof.Proof.Gen.KernelIdeal.Frame
import proofs.«108384_j23502061044385_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.ClassLstm
open Idealize.ShloMosaic Idealize.ShloMosaic.ValueIdx Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The windows' block indices at grid point `t`, decided over the eight points: the class-state windows and the outputs
    move down the rows with the point, the row-state windows stay, the weights window moves along the columns. -/
theorem arrIndexFacts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = t.val)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- Row `n` of the block of point `t` is row `128·t + n` of the array. -/
def blockRow (t : Fin cfg1.N) (n : Fin 128) : Fin 1024 :=
  ⟨128 * t.val + n.val, by have h8 : cfg1.N = 8 := N_1; have ht := t.isLt; have hn := n.isLt; omega⟩

/-- The blocks grid point `t` stages, as arrays of extended reals: rows 128·t … 128·t+127 of the hidden and of the cell
    class states, the hidden and the cell row states (whole), and columns 128·t … 128·t+127 of the weights. -/
abbrev blkClassH (c : Dev nD) (t : Fin cfg1.N) : Vec Ideal S128x512 .f32 := iblk1 V c 0 t
abbrev blkClassC (c : Dev nD) (t : Fin cfg1.N) : Vec Ideal S128x512 .f32 := iblk1 V c 1 t
abbrev blkRowH (c : Dev nD) (t : Fin cfg1.N) : Vec Ideal S128x512 .f32 := iblk1 V c 2 t
abbrev blkRowC (c : Dev nD) (t : Fin cfg1.N) : Vec Ideal S128x512 .f32 := iblk1 V c 3 t
abbrev blkWeight (c : Dev nD) (t : Fin cfg1.N) : Vec Ideal S128x128 .f32 := iblk1 V c 4 t

/-- An element of the first class-state block sits in its array at the block's rows. -/
theorem arrBlock0 (c : Dev nD) (t : Fin cfg1.N) (n : Fin 128) (u : Fin 512) :
    blkClassH V c t (ix2 n u) = V c main_arg2 (ix2 (blockRow t n) u) := by
  show V c main_arg2 (((cfg1.win 0).blk t).view.emb (ix2 n u)) = V c main_arg2 (ix2 (blockRow t n) u)
  refine congrArg _ ?_
  funext a; apply Fin.ext
  obtain ⟨e0, e1⟩ := (arrIndexFacts t).1
  match a with
  | ⟨0, _⟩ => show win1_0.index t (0 : Fin 2) * 128 + 1 * n.val = 128 * t.val + n.val; omega
  | ⟨1, _⟩ => show win1_0.index t (1 : Fin 2) * 512 + 1 * u.val = u.val; omega

/-- An element of the second class-state block sits in its array at the block's rows. -/
theorem arrBlock1 (c : Dev nD) (t : Fin cfg1.N) (n : Fin 128) (u : Fin 512) :
    blkClassC V c t (ix2 n u) = V c main_arg3 (ix2 (blockRow t n) u) := by
  show V c main_arg3 (((cfg1.win 1).blk t).view.emb (ix2 n u)) = V c main_arg3 (ix2 (blockRow t n) u)
  refine congrArg _ ?_
  funext a; apply Fin.ext
  obtain ⟨e0, e1⟩ := (arrIndexFacts t).2.1
  match a with
  | ⟨0, _⟩ => show win1_1.index t (0 : Fin 2) * 128 + 1 * n.val = 128 * t.val + n.val; omega
  | ⟨1, _⟩ => show win1_1.index t (1 : Fin 2) * 512 + 1 * u.val = u.val; omega

/-- The hidden row-state block is its whole array. -/
theorem arrBlock2 (c : Dev nD) (t : Fin cfg1.N) (b : Fin 128) (u : Fin 512) :
    blkRowH V c t (ix2 b u) = V c main_v6_0 (ix2 b u) := by
  show V c main_v6_0 (((cfg1.win 2).blk t).view.emb (ix2 b u)) = V c main_v6_0 (ix2 b u)
  refine congrArg _ ?_
  funext a; apply Fin.ext
  obtain ⟨e0, e1⟩ := (arrIndexFacts t).2.2.1
  match a with
  | ⟨0, _⟩ => show win1_2.index t (0 : Fin 2) * 128 + 1 * b.val = b.val; omega
  | ⟨1, _⟩ => show win1_2.index t (1 : Fin 2) * 512 + 1 * u.val = u.val; omega

/-- The cell row-state block is its whole array. -/
theorem arrBlock3 (c : Dev nD) (t : Fin cfg1.N) (b : Fin 128) (u : Fin 512) :
    blkRowC V c t (ix2 b u) = V c main_v6_1 (ix2 b u) := by
  show V c main_v6_1 (((cfg1.win 3).blk t).view.emb (ix2 b u)) = V c main_v6_1 (ix2 b u)
  refine congrArg _ ?_
  funext a; apply Fin.ext
  obtain ⟨e0, e1⟩ := (arrIndexFacts t).2.2.2.1
  match a with
  | ⟨0, _⟩ => show win1_3.index t (0 : Fin 2) * 128 + 1 * b.val = b.val; omega
  | ⟨1, _⟩ => show win1_3.index t (1 : Fin 2) * 512 + 1 * u.val = u.val; omega

/-- An element of the weights block sits in its array at the block's columns. -/
theorem arrBlock4 (c : Dev nD) (t : Fin cfg1.N) (b : Fin 128) (n : Fin 128) :
    blkWeight V c t (ix2 b n) = V c main_v6_2 (ix2 b (blockRow t n)) := by
  show V c main_v6_2 (((cfg1.win 4).blk t).view.emb (ix2 b n)) = V c main_v6_2 (ix2 b (blockRow t n))
  refine congrArg _ ?_
  funext a; apply Fin.ext
  obtain ⟨e0, e1⟩ := (arrIndexFacts t).2.2.2.2.1
  match a with
  | ⟨0, _⟩ => show win1_4.index t (0 : Fin 2) * 128 + 1 * b.val = b.val; omega
  | ⟨1, _⟩ => show win1_4.index t (1 : Fin 2) * 128 + 1 * n.val = 128 * t.val + n.val; omega

/-- An element of the first output's block sits in its array at the block's rows. -/
theorem arrEmb5 (t : Fin cfg1.N) (n : Fin 128) (u : Fin 512) :
    ((cfg1.win 5).blk t).view.emb (ix2 n u) = ix2 (blockRow t n) u := by
  funext a; apply Fin.ext
  obtain ⟨e0, e1⟩ := (arrIndexFacts t).2.2.2.2.2.1
  match a with
  | ⟨0, _⟩ => show win1_5.index t (0 : Fin 2) * 128 + 1 * n.val = 128 * t.val + n.val; omega
  | ⟨1, _⟩ => show win1_5.index t (1 : Fin 2) * 512 + 1 * u.val = u.val; omega

/-- An element of the second output's block sits in its array at the block's rows. -/
theorem arrEmb6 (t : Fin cfg1.N) (n : Fin 128) (u : Fin 512) :
    ((cfg1.win 6).blk t).view.emb (ix2 n u) = ix2 (blockRow t n) u := by
  funext a; apply Fin.ext
  obtain ⟨e0, e1⟩ := (arrIndexFacts t).2.2.2.2.2.2
  match a with
  | ⟨0, _⟩ => show win1_6.index t (0 : Fin 2) * 128 + 1 * n.val = 128 * t.val + n.val; omega
  | ⟨1, _⟩ => show win1_6.index t (1 : Fin 2) * 512 + 1 * u.val = u.val; omega

/-- The grid point whose block holds row `r`: point `r / 128`. -/
def pointOfRow (r : Fin 1024) : Fin cfg1.N :=
  ⟨r.val / 128, by have h8 : cfg1.N = 8 := N_1; have hr := r.isLt; omega⟩

/-- Every entry of the first output array is in the block of its row's point. -/
theorem arrCover5 (i : S1024x512.Idx) :
    ∃ t : Fin cfg1.N, (cfg1.win 5).flush t = true ∧ i ∈ ((cfg1.win 5).blk t).view.set := by
  have h0 : (i 0).val < 1024 := (i 0).isLt
  have h1 : (i 1).val < 512 := (i 1).isLt
  refine ⟨pointOfRow ⟨(i 0).val, h0⟩, flush1_5 _, ?_⟩
  show i ∈ ((View.whole main_v7_0).slice (win1_5.rect (pointOfRow ⟨(i 0).val, h0⟩))).set
  rw [View.set_slice_whole, Rect.mem_set_unit]
  intro a
  obtain ⟨e0, e1⟩ := (arrIndexFacts (pointOfRow ⟨(i 0).val, h0⟩)).2.2.2.2.2.1
  have hp : (pointOfRow ⟨(i 0).val, h0⟩).val = (i 0).val / 128 := rfl
  match a with
  | ⟨0, _⟩ =>
    show win1_5.index (pointOfRow ⟨(i 0).val, h0⟩) (0 : Fin 2) * 128 ≤ (i 0).val
      ∧ (i 0).val < win1_5.index (pointOfRow ⟨(i 0).val, h0⟩) (0 : Fin 2) * 128 + 128
    omega
  | ⟨1, _⟩ =>
    show win1_5.index (pointOfRow ⟨(i 0).val, h0⟩) (1 : Fin 2) * 512 ≤ (i 1).val
      ∧ (i 1).val < win1_5.index (pointOfRow ⟨(i 0).val, h0⟩) (1 : Fin 2) * 512 + 512
    omega

/-- Every entry of the second output array is in the block of its row's point. -/
theorem arrCover6 (i : S1024x512.Idx) :
    ∃ t : Fin cfg1.N, (cfg1.win 6).flush t = true ∧ i ∈ ((cfg1.win 6).blk t).view.set := by
  have h0 : (i 0).val < 1024 := (i 0).isLt
  have h1 : (i 1).val < 512 := (i 1).isLt
  refine ⟨pointOfRow ⟨(i 0).val, h0⟩, flush1_6 _, ?_⟩
  show i ∈ ((View.whole main_v7_1).slice (win1_6.rect (pointOfRow ⟨(i 0).val, h0⟩))).set
  rw [View.set_slice_whole, Rect.mem_set_unit]
  intro a
  obtain ⟨e0, e1⟩ := (arrIndexFacts (pointOfRow ⟨(i 0).val, h0⟩)).2.2.2.2.2.2
  have hp : (pointOfRow ⟨(i 0).val, h0⟩).val = (i 0).val / 128 := rfl
  match a with
  | ⟨0, _⟩ =>
    show win1_6.index (pointOfRow ⟨(i 0).val, h0⟩) (0 : Fin 2) * 128 ≤ (i 0).val
      ∧ (i 0).val < win1_6.index (pointOfRow ⟨(i 0).val, h0⟩) (0 : Fin 2) * 128 + 128
    omega
  | ⟨1, _⟩ =>
    show win1_6.index (pointOfRow ⟨(i 0).val, h0⟩) (1 : Fin 2) * 512 ≤ (i 1).val
      ∧ (i 1).val < win1_6.index (pointOfRow ⟨(i 0).val, h0⟩) (1 : Fin 2) * 512 + 512
    omega

/-- The class-state update of the arrays `A` (class states) and `B` (row states) the region finds, with its weights, as one
    array: the additive spelling at every entry. -/
def arrBlendFn (c : Dev nD) (A : Mat 1024 512) (B : Mat 128 512) : S1024x512.Idx → Elt Ideal .f32 := fun i =>
  blendAdd A (fun b u' => B (ix2 b u')) (fun b n' => V c main_v6_2 (ix2 b n')) ⟨(i 0).val, (i 0).isLt⟩ ⟨(i 1).val, (i 1).isLt⟩

/-- **The first output array** after the region, entry by entry: the hidden class states' update. -/
theorem newHidden_array (c : Dev nD)
    (hpoint : ∀ (t : Fin cfg1.N) (n : Fin 128) (u : Fin 512),
      (outsAt1 V c t).1 (ix2 n u)
        = blkClassH V c t (ix2 n u) + (Finset.univ : Finset (Fin 128)).fold max ⊥
            (fun b => blkWeight V c t (ix2 b n)
              * (blkRowH V c t (ix2 b u) - blkClassH V c t (ix2 n u))))
    (n : Fin 1024) (u : Fin 512) :
    (dat1 V c).arrAt 5 cfg1.N (ix2 n u)
      = blendAdd (V c main_arg2) (fun b u' => V c main_v6_0 (ix2 b u')) (fun b n' => V c main_v6_2 (ix2 b n')) n u := by
  have hG : ∀ t, (cfg1.win 5).flush t = true →
      (dat1 V c).flushed 5 t = ((cfg1.win 5).blk t).view.read (Elt Ideal) (arrBlendFn V c (V c main_arg2) (V c main_v6_0)) := by
    intro t _
    show (cfg1.win 5).cut (grid1.coords t) ((dat1 V c).after 5 t) = _
    rw [after1_5]
    funext j
    obtain ⟨n', u', rfl⟩ : ∃ (n' : Fin 128) (u' : Fin 512), j = ix2 n' u' := ⟨j 0, j 1, eq_ix2 j⟩
    show (outsAt1 V c t).1 (ix2 n' u')
      = arrBlendFn V c (V c main_arg2) (V c main_v6_0) (((cfg1.win 5).blk t).view.emb (ix2 n' u'))
    rw [hpoint t n' u', arrEmb5 t n' u', arrBlock0 V c t n' u']
    simp only [arrBlock2 V c t, arrBlock4 V c t]
    rfl
  exact congrFun ((dat1 V c).arrAt_eq_of_cover 5 (arrBlendFn V c (V c main_arg2) (V c main_v6_0)) hG arrCover5) (ix2 n u)

/-- **The second output array** after the region, entry by entry: the cell class states' update. -/
theorem newCell_array (c : Dev nD)
    (hpoint : ∀ (t : Fin cfg1.N) (n : Fin 128) (u : Fin 512),
      (outsAt1 V c t).2 (ix2 n u)
        = blkClassC V c t (ix2 n u) + (Finset.univ : Finset (Fin 128)).fold max ⊥
            (fun b => blkWeight V c t (ix2 b n)
              * (blkRowC V c t (ix2 b u) - blkClassC V c t (ix2 n u))))
    (n : Fin 1024) (u : Fin 512) :
    (dat1 V c).arrAt 6 cfg1.N (ix2 n u)
      = blendAdd (V c main_arg3) (fun b u' => V c main_v6_1 (ix2 b u')) (fun b n' => V c main_v6_2 (ix2 b n')) n u := by
  have hG : ∀ t, (cfg1.win 6).flush t = true →
      (dat1 V c).flushed 6 t = ((cfg1.win 6).blk t).view.read (Elt Ideal) (arrBlendFn V c (V c main_arg3) (V c main_v6_1)) := by
    intro t _
    show (cfg1.win 6).cut (grid1.coords t) ((dat1 V c).after 6 t) = _
    rw [after1_6]
    funext j
    obtain ⟨n', u', rfl⟩ : ∃ (n' : Fin 128) (u' : Fin 512), j = ix2 n' u' := ⟨j 0, j 1, eq_ix2 j⟩
    show (outsAt1 V c t).2 (ix2 n' u')
      = arrBlendFn V c (V c main_arg3) (V c main_v6_1) (((cfg1.win 6).blk t).view.emb (ix2 n' u'))
    rw [hpoint t n' u', arrEmb6 t n' u', arrBlock1 V c t n' u']
    simp only [arrBlock3 V c t, arrBlock4 V c t]
    rfl
  exact congrFun ((dat1 V c).arrAt_eq_of_cover 6 (arrBlendFn V c (V c main_arg3) (V c main_v6_1)) hG arrCover6) (ix2 n u)

end Cert.KernelIdeal.Region1

end
-- ==== Proof.KernSpec.lean ====
/-
  The idealized kernel program's three results in closed form, as functions of the launch arguments.

  The first region's arrays are the LSTM step on the softmax-gathered states (read entry by entry); its operands are the
  arguments themselves, since the host operations before it only change float format or add a unit axis to the bias.
  At each grid point the second region's body leaves, in each output block, the class-state block plus the largest
  weighted difference over the 128 batch rows (four trips of 32 rows joined into one maximum); the eight blocks tile
  the 1024 classes, so each output array is the additive spelling of the class-state update on the first region's
  results.
-/
import proofs.«108384_j23502061044385_2_alg».proof.Proof.Spec
import proofs.«108384_j23502061044385_2_alg».proof.Proof.KernelRun
import proofs.«108384_j23502061044385_2_alg».proof.Proof.Region0Spec
import proofs.«108384_j23502061044385_2_alg».proof.Proof.HostEntry
import proofs.«108384_j23502061044385_2_alg».proof.Proof.Region1Pieces
import proofs.«108384_j23502061044385_2_alg».proof.Proof.PointEntry
import proofs.«108384_j23502061044385_2_alg».proof.Proof.Region1Array

set_option maxRecDepth 16384

noncomputable section

namespace Cert.KernelIdeal.Closed

open Cert.KernelIdeal Cert.KernelIdeal.Gen Cert.KernelIdeal.Run Cert.KernelIdeal.Entry Cert.KernelIdeal.Region0
  Cert.KernelIdeal.Region1 Cert.ClassLstm Cert.ClassLstm.Kern
open Idealize.ShloMosaic Idealize.ShloMosaic.ValueIdx Idealize.ShloMosaic.TcCoe
open Idealize.SL Idealize.SL.Sem

variable (m : (ℓ : Loc nD τ sig) → Buf (Elt Ideal) ℓ) (ρ : Dev nD → PrngReg) (c : Dev nD)

/-- The first region's new hidden row states, entry by entry, from the launch arguments. -/
theorem hidden_rows (b : Fin 128) (u : Fin 512) :
    ((dat0 (V1 m ρ) c).arrAt 7 cfg0.N : S128x512.Idx → EReal) (ix2 b u) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b u := by
  rw [hidden_at (V1 m ρ) c (m ((c.tc : Thread nD τ).loc main_arg6)) (fun j => bias_entry m ρ c j) b u,
    x_entry, logits_entry, hs_entry, cs_entry, k_entry, rk_entry]

/-- The first region's new cell row states. -/
theorem cell_rows (b : Fin 128) (u : Fin 512) :
    ((dat0 (V1 m ρ) c).arrAt 8 cfg0.N : S128x512.Idx → EReal) (ix2 b u) = cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b u := by
  rw [cell_at (V1 m ρ) c (m ((c.tc : Thread nD τ).loc main_arg6)) (fun j => bias_entry m ρ c j) b u,
    x_entry, logits_entry, hs_entry, cs_entry, k_entry, rk_entry]

/-- The first region's softmax weights. -/
theorem weight_rows (b : Fin 128) (n : Fin 1024) :
    ((dat0 (V1 m ρ) c).arrAt 9 cfg0.N : S128x1024.Idx → EReal) (ix2 b n) = weight (m ((c.tc : Thread nD τ).loc main_arg1)) b n := by
  rw [weight_at (V1 m ρ) c b n, logits_entry]

/-- What a grid point of the second region leaves in its first output block, as a function of the point's blocks. -/
theorem point_hidden_fn (V : (c : Dev nD) → (b : Ref sig .tc) → Buf (Elt Ideal) ((c : Thread nD τ).loc b)) (t : Fin cfg1.N) :
    (outsAt1 V c t).1 = pointH (F := Ideal) (blkClassH V c t) (blkRowH V c t) (blkWeight V c t) := by
  unfold outsAt1
  dsimp only
  rw [out_hidden]

/-- What a grid point of the second region leaves in its second output block, as a function of the point's blocks. -/
theorem point_cell_fn (V : (c : Dev nD) → (b : Ref sig .tc) → Buf (Elt Ideal) ((c : Thread nD τ).loc b)) (t : Fin cfg1.N) :
    (outsAt1 V c t).2 = pointC (F := Ideal) (blkClassC V c t) (blkRowC V c t) (blkWeight V c t) := by
  unfold outsAt1
  dsimp only
  rw [out_cell]

/-- The same at an entry: the class state plus the largest weighted difference over the 128 rows. -/
theorem point_hidden (V : (c : Dev nD) → (b : Ref sig .tc) → Buf (Elt Ideal) ((c : Thread nD τ).loc b)) (t : Fin cfg1.N)
    (n : Fin 128) (u : Fin 512) :
    (outsAt1 V c t).1 (ix2 n u) = blkClassH V c t (ix2 n u)
      + (Finset.univ : Finset (Fin 128)).fold max ⊥
          (fun b => blkWeight V c t (ix2 b n) * (blkRowH V c t (ix2 b u) - blkClassH V c t (ix2 n u))) := by
  rw [point_hidden_fn c V t]
  exact pointH_entry (blkClassH V c t) (blkRowH V c t) (blkWeight V c t) n u

theorem point_cell (V : (c : Dev nD) → (b : Ref sig .tc) → Buf (Elt Ideal) ((c : Thread nD τ).loc b)) (t : Fin cfg1.N)
    (n : Fin 128) (u : Fin 512) :
    (outsAt1 V c t).2 (ix2 n u) = blkClassC V c t (ix2 n u)
      + (Finset.univ : Finset (Fin 128)).fold max ⊥
          (fun b => blkWeight V c t (ix2 b n) * (blkRowC V c t (ix2 b u) - blkClassC V c t (ix2 n u))) := by
  rw [point_cell_fn c V t]
  exact pointC_entry (blkClassC V c t) (blkRowC V c t) (blkWeight V c t) n u

/-- The program's first result: the new hidden row states. -/
theorem result_hidden (b : Fin 128) (u : Fin 512) :
    (W3 m ρ c (Proc.devRef .tc main_v6_0) : S128x512.Idx → EReal) (ix2 b u) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b u := by
  rw [W3_hidden]; exact hidden_rows m ρ c b u

/-- The program's second result: the class hidden states updated, in the additive spelling. -/
theorem result_newHidden (n : Fin 1024) (u : Fin 512) :
    (W3 m ρ c (Proc.devRef .tc main_v7_0) : S1024x512.Idx → EReal) (ix2 n u)
      = blendAdd (m ((c.tc : Thread nD τ).loc main_arg2)) (fun b u' => hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b u') (fun b n' => weight (m ((c.tc : Thread nD τ).loc main_arg1)) b n') n u := by
  rw [W3_newHidden, newHidden_array (V2 m ρ) c (point_hidden c (V2 m ρ)) n u, hs_entry2, hidden_entry2, weights_entry2]
  exact congrArg₂ (fun B w => blendAdd (m ((c.tc : Thread nD τ).loc main_arg2)) B w n u)
    (funext fun b => funext fun u' => hidden_rows m ρ c b u') (funext fun b => funext fun n' => weight_rows m ρ c b n')

/-- The program's third result: the class cell states updated, in the additive spelling. -/
theorem result_newCell (n : Fin 1024) (u : Fin 512) :
    (W3 m ρ c (Proc.devRef .tc main_v7_1) : S1024x512.Idx → EReal) (ix2 n u)
      = blendAdd (m ((c.tc : Thread nD τ).loc main_arg3)) (fun b u' => cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b u') (fun b n' => weight (m ((c.tc : Thread nD τ).loc main_arg1)) b n') n u := by
  rw [W3_newCell, newCell_array (V2 m ρ) c (point_cell c (V2 m ρ)) n u, cs_entry2, cell_entry2, weights_entry2]
  exact congrArg₂ (fun B w => blendAdd (m ((c.tc : Thread nD τ).loc main_arg3)) B w n u)
    (funext fun b => funext fun u' => cell_rows m ρ c b u') (funext fun b => funext fun n' => weight_rows m ρ c b n')

end Cert.KernelIdeal.Closed

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«108384_j23502061044385_2_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.LibMeanScale.lean ====
/-
  Scaling by a reciprocal against dividing, on the extended reals.

  A neighbour mean is a sum divided by a count clamped below at one. One program multiplies the sum by the
  reciprocal `1 / max(n, 1)` computed once; the other divides the sum by `max(n, 1)`. On the extended reals the
  quotient `x / y` is `x · y⁻¹` whenever `y ≠ 0`, and `max(n, 1) ≥ 1` is never zero (whatever `n` is, the
  infinities included), so `a · (1 · d⁻¹) = a · d⁻¹ = a / d`: no finiteness of `a` or `n` is needed.
-/
import Idealize.ShloMosaic.PureOps.Ideal.Laws

noncomputable section

namespace Idealize.ShloMosaic.MeanScale

open Idealize.ShloMosaic

/-- The single-precision word `0x3F800000` denotes the real number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- A count clamped below at one is not zero. -/
theorem max_one_ne_zero (x : EReal) : max x 1 ≠ 0 :=
  ne_of_gt (lt_of_lt_of_le zero_lt_one (le_max_right x 1))

/-- **Scaling by the reciprocal of a clamped count is dividing by it**, for every extended real `a` and `x`. -/
theorem mul_recip_eq_div (a x : EReal) : a * Ideal.div 1 (max x 1) = Ideal.div a (max x 1) := by
  unfold Ideal.div
  rw [if_neg (max_one_ne_zero x), if_neg (max_one_ne_zero x), one_mul]

/-- The array form: a sum array `agg` scaled entrywise by the reciprocal of the clamped count read at `β i`, against
    `agg` divided entrywise by the clamped count read at the same place. `β` is whatever re-indexing carries an entry
    of the sum array to its row's count. -/
theorem mulf_recip_eq_hostDivf {s sN : Shape} (β : s.Idx → sN.Idx) (agg : FVec Ideal s .f32) (deg : FVec Ideal sN .f32) :
    mulf agg (fun i => Host.divf (constant (F := Ideal) sN .f32 0x3F800000#32)
        (maximumf deg (constant (F := Ideal) sN .f32 0x3F800000#32)) (β i))
      = Host.divf agg (fun i => maximumf deg (constant (F := Ideal) sN .f32 0x3F800000#32) (β i)) := by
  funext i
  simp only [mulf, Host.divf, maximumf, constant, Ideal.mulf_def, Ideal.hostDivf_def, Ideal.maximumf_def,
    Ideal.ofBits_def, ofBits_one_f32]
  exact mul_recip_eq_div _ _

end Idealize.ShloMosaic.MeanScale

end
-- ==== Proof.RefPrefix.lean ====
/-
  The reference program's first half read at an entry.

  Stage by stage, each operation of the reference is read at an index built from literal coordinates and identified with
  the corresponding expression of the specification: the scaled logits, the row maximum (a fold of `max` from the least
  extended real), the exponentials of the differences, their row sum, the softmax weights; the two gathers and the
  preactivation (sums of products); the four gate column groups; the logistic gates spelt `1 / (1 + exp (−z))`; the new
  cell and hidden states.
-/
import proofs.«108384_j23502061044385_2_alg».proof.Proof.Spec
import proofs.«108384_j23502061044385_2_alg».proof.Proof.Gen.ReferenceIdeal.Read
import proofs.«108384_j23502061044385_2_alg».proof.Proof.LibColumnLayout
import proofs.«108384_j23502061044385_2_alg».proof.Proof.LibPlainDot
import proofs.«108384_j23502061044385_2_alg».proof.Proof.LibMeanScale
import Idealize.ShloMosaic.Lib.ValueIdx
import Idealize.ShloMosaic.Lib.Pipeline.Value
import Idealize.ShloMosaic.PureOps.Ideal.Laws

noncomputable section

open scoped BigOperators

namespace Cert.ClassLstm.Ref

open Cert.ClassLstm Cert.ReferenceIdeal Cert.ReferenceIdeal.Gen Cert.ReferenceIdeal.Read Idealize.ShloMosaic
  Idealize.ShloMosaic.ValueIdx

/-! ## The softmax weights -/

/-- The scaled logit. -/
theorem v1_entry (x1 : Mat 128 1024) (b : Fin 128) (n : Fin 1024) :
    val_main_v1 (F := Ideal) x1 (ix2 b n) = x1 (ix2 b n) * temp := by
  rw [val_main_v1_apply, val_main_v0_apply, val_main_cst_apply]
  rfl

/-- Removing the second axis of a `128 × 1024` array leaves a length-`128` one. -/
theorem reduces_rows : (S128x1024).Reduces [1] S128 := by decide

/-- The row maximum: the fold of `max` over the row's scaled logits from the least extended real. -/
theorem v2_entry (x1 : Mat 128 1024) (b : Fin 128) :
    val_main_v2 (F := Ideal) x1 (ix1 b) = rowTop x1 b := by
  unfold val_main_v2
  refine (Host.reduce_eq_fold_single (α := Ideal .f32) (FloatOps.maximumf (F := Ideal) (φ := .f32))
    (val_main_v1 (F := Ideal) x1) (val_main_cst_0 (F := Ideal)) reducesTo_S128x1024_S128_d1 reduces_rows h_S_ (ix1 b)).trans ?_
  rw [val_main_cst_0_apply]
  show (Finset.univ : Finset (Fin 1024)).fold max (Ideal.ofBits .f32 0xFF800000#32) _ = _
  rw [ColumnLayout.ofBits_neg_inf_f32]
  unfold rowTop
  refine congrArg (Finset.fold max ⊥ · Finset.univ) (funext fun k => ?_)
  refine Eq.trans ?_ (v1_entry x1 b k)
  exact congrArg (val_main_v1 (F := Ideal) x1) (funext fun ax => Fin.ext (by
    match ax with
    | ⟨0, _⟩ => rfl
    | ⟨1, _⟩ => rfl))

/-- The maximum with the broadcast least element changes nothing. -/
theorem v4_entry (x1 : Mat 128 1024) (b : Fin 128) :
    val_main_v4 (F := Ideal) x1 (ix1 b) = rowTop x1 b := by
  rw [val_main_v4_apply, val_main_v3_apply, val_main_cst_1_apply, v2_entry]
  show max (Ideal.ofBits .f32 0xFF800000#32) _ = _
  rw [ColumnLayout.ofBits_neg_inf_f32]
  exact max_bot_left _

/-- The row maximum kept as a column and broadcast along the row. -/
theorem v6_entry (x1 : Mat 128 1024) (b : Fin 128) (n : Fin 1024) :
    val_main_v6 (F := Ideal) x1 (ix2 b n) = rowTop x1 b := by
  rw [val_main_v6_apply, val_main_v5_apply]
  refine Eq.trans ?_ (v4_entry x1 b)
  exact congrArg (val_main_v4 (F := Ideal) x1) (funext fun ax => Fin.ext (by
    match ax with
    | ⟨0, _⟩ => rfl))

/-- The exponential of the scaled logit less the row maximum. -/
theorem v8_entry (x1 : Mat 128 1024) (b : Fin 128) (n : Fin 1024) :
    val_main_v8 (F := Ideal) x1 (ix2 b n) = Ideal.exp (x1 (ix2 b n) * temp - rowTop x1 b) := by
  rw [val_main_v8_apply, val_main_v7_apply, v1_entry, v6_entry]
  rfl

/-- The row sum of the exponentials. -/
theorem v9_entry (x1 : Mat 128 1024) (b : Fin 128) :
    val_main_v9 (F := Ideal) x1 (ix1 b) = ∑ j : Fin 1024, Ideal.exp (x1 (ix2 b j) * temp - rowTop x1 b) := by
  rw [val_main_v9_apply, val_main_cst_2_apply]
  show Ideal.ofBits .f32 0x00000000#32 + _ = _
  rw [Ideal.ofBits_zero_f32, zero_add]
  refine Finset.sum_congr rfl fun k _ => ?_
  refine Eq.trans ?_ (v8_entry x1 b k)
  exact congrArg (val_main_v8 (F := Ideal) x1) (funext fun ax => Fin.ext (by
    match ax with
    | ⟨0, _⟩ => rfl
    | ⟨1, _⟩ => rfl))

/-- The row sum kept as a column and broadcast along the row. -/
theorem v11_entry (x1 : Mat 128 1024) (b : Fin 128) (n : Fin 1024) :
    val_main_v11 (F := Ideal) x1 (ix2 b n) = ∑ j : Fin 1024, Ideal.exp (x1 (ix2 b j) * temp - rowTop x1 b) := by
  rw [val_main_v11_apply, val_main_v10_apply]
  refine Eq.trans ?_ (v9_entry x1 b)
  exact congrArg (val_main_v9 (F := Ideal) x1) (funext fun ax => Fin.ext (by
    match ax with
    | ⟨0, _⟩ => rfl))

/-- **The softmax weight.** -/
theorem weight_entry (x1 : Mat 128 1024) (b : Fin 128) (n : Fin 1024) :
    val_main_v12 (F := Ideal) x1 (ix2 b n) = weight x1 b n := by
  rw [val_main_v12_apply, v8_entry, v11_entry]
  rfl

/-! ## The gathers and the preactivation -/

/-- The gathered hidden state: the weights against the per-class hidden states. -/
theorem gathered_hidden_entry (x1 : Mat 128 1024) (x2 : Mat 1024 512) (b : Fin 128) (u : Fin 512) :
    val_main_v13 (F := Ideal) x1 x2 (ix2 b u) = gathered x1 x2 b u := by
  rw [val_main_v13_apply]
  unfold gathered
  refine Finset.sum_congr rfl fun k _ => ?_
  have el : lidx_main_v13 (ix2 b u) k = ix2 b k := (funext fun ax => Fin.ext (by
    match ax with
    | ⟨0, _⟩ => rfl
    | ⟨1, _⟩ => rfl))
  have er : ridx_main_v13 (ix2 b u) k = ix2 k u := (funext fun ax => Fin.ext (by
    match ax with
    | ⟨0, _⟩ => rfl
    | ⟨1, _⟩ => rfl))
  rw [el, er, weight_entry]

/-- The gathered cell state: the weights against the per-class cell states. -/
theorem gathered_cell_entry (x1 : Mat 128 1024) (x3 : Mat 1024 512) (b : Fin 128) (u : Fin 512) :
    val_main_v14 (F := Ideal) x1 x3 (ix2 b u) = gathered x1 x3 b u := by
  rw [val_main_v14_apply]
  unfold gathered
  refine Finset.sum_congr rfl fun k _ => ?_
  have el : lidx_main_v14 (ix2 b u) k = ix2 b k := (funext fun ax => Fin.ext (by
    match ax with
    | ⟨0, _⟩ => rfl
    | ⟨1, _⟩ => rfl))
  have er : ridx_main_v14 (ix2 b u) k = ix2 k u := (funext fun ax => Fin.ext (by
    match ax with
    | ⟨0, _⟩ => rfl
    | ⟨1, _⟩ => rfl))
  rw [el, er, weight_entry]

/-- The input row against the input kernel. -/
theorem v15_entry (x0 : Mat 128 512) (x4 : Mat 512 2048) (b : Fin 128) (j : Fin 2048) :
    val_main_v15 (F := Ideal) x0 x4 (ix2 b j) = ∑ f : Fin 512, x0 (ix2 b f) * x4 (ix2 f j) := by
  rw [val_main_v15_apply]
  refine Finset.sum_congr rfl fun k _ => ?_
  have el : lidx_main_v15 (ix2 b j) k = ix2 b k := (funext fun ax => Fin.ext (by
    match ax with
    | ⟨0, _⟩ => rfl
    | ⟨1, _⟩ => rfl))
  have er : ridx_main_v15 (ix2 b j) k = ix2 k j := (funext fun ax => Fin.ext (by
    match ax with
    | ⟨0, _⟩ => rfl
    | ⟨1, _⟩ => rfl))
  rw [el, er]

/-- The gathered hidden row against the recurrent kernel. -/
theorem v16_entry (x1 : Mat 128 1024) (x2 : Mat 1024 512) (x5 : Mat 512 2048) (b : Fin 128) (j : Fin 2048) :
    val_main_v16 (F := Ideal) x1 x2 x5 (ix2 b j) = ∑ u : Fin 512, gathered x1 x2 b u * x5 (ix2 u j) := by
  rw [val_main_v16_apply]
  refine Finset.sum_congr rfl fun k _ => ?_
  have el : lidx_main_v16 (ix2 b j) k = ix2 b k := (funext fun ax => Fin.ext (by
    match ax with
    | ⟨0, _⟩ => rfl
    | ⟨1, _⟩ => rfl))
  have er : ridx_main_v16 (ix2 b j) k = ix2 k j := (funext fun ax => Fin.ext (by
    match ax with
    | ⟨0, _⟩ => rfl
    | ⟨1, _⟩ => rfl))
  rw [el, er, gathered_hidden_entry]

/-- The bias broadcast along the rows. -/
theorem v19_entry (x6 : Row 2048) (b : Fin 128) (j : Fin 2048) :
    val_main_v19 (F := Ideal) x6 (ix2 b j) = x6 (ix1 j) := by
  rw [val_main_v19_apply, val_main_v18_apply]
  exact congrArg x6 (funext fun ax => Fin.ext (by
    match ax with
    | ⟨0, _⟩ => rfl))

/-- **The preactivation.** -/
theorem preact_entry (x0 : Mat 128 512) (x1 : Mat 128 1024) (x2 : Mat 1024 512) (x4 x5 : Mat 512 2048) (x6 : Row 2048) (b : Fin 128) (j : Fin 2048) :
    val_main_v20 (F := Ideal) x0 x1 x2 x4 x5 x6 (ix2 b j) = preact x0 x1 x2 x4 x5 x6 b j := by
  rw [val_main_v20_apply, val_main_v17_apply, v15_entry, v16_entry, v19_entry]
  rfl

/-! ## The gates and the new states -/

/-- The input gate's column group: columns `0 + u` of the preactivation. -/
theorem v21_entry (x0 : Mat 128 512) (x1 : Mat 128 1024) (x2 : Mat 1024 512) (x4 x5 : Mat 512 2048) (x6 : Row 2048) (b : Fin 128) (u : Fin 512) :
    val_main_v21 (F := Ideal) x0 x1 x2 x4 x5 x6 (ix2 b u) = preact x0 x1 x2 x4 x5 x6 b (gateCol 0 (by norm_num) u) := by
  rw [val_main_v21_apply]
  refine Eq.trans ?_ (preact_entry x0 x1 x2 x4 x5 x6 b _)
  exact congrArg (val_main_v20 (F := Ideal) x0 x1 x2 x4 x5 x6) (funext fun ax => Fin.ext (by
    match ax with
    | ⟨0, _⟩ => rfl
    | ⟨1, _⟩ => exact (Nat.zero_add u.val).symm))

/-- The forget gate's column group: columns `512 + u` of the preactivation. -/
theorem v22_entry (x0 : Mat 128 512) (x1 : Mat 128 1024) (x2 : Mat 1024 512) (x4 x5 : Mat 512 2048) (x6 : Row 2048) (b : Fin 128) (u : Fin 512) :
    val_main_v22 (F := Ideal) x0 x1 x2 x4 x5 x6 (ix2 b u) = preact x0 x1 x2 x4 x5 x6 b (gateCol 512 (by norm_num) u) := by
  rw [val_main_v22_apply]
  refine Eq.trans ?_ (preact_entry x0 x1 x2 x4 x5 x6 b _)
  exact congrArg (val_main_v20 (F := Ideal) x0 x1 x2 x4 x5 x6) (funext fun ax => Fin.ext (by
    match ax with
    | ⟨0, _⟩ => rfl
    | ⟨1, _⟩ => rfl))

/-- The candidate gate's column group: columns `1024 + u` of the preactivation. -/
theorem v23_entry (x0 : Mat 128 512) (x1 : Mat 128 1024) (x2 : Mat 1024 512) (x4 x5 : Mat 512 2048) (x6 : Row 2048) (b : Fin 128) (u : Fin 512) :
    val_main_v23 (F := Ideal) x0 x1 x2 x4 x5 x6 (ix2 b u) = preact x0 x1 x2 x4 x5 x6 b (gateCol 1024 (by norm_num) u) := by
  rw [val_main_v23_apply]
  refine Eq.trans ?_ (preact_entry x0 x1 x2 x4 x5 x6 b _)
  exact congrArg (val_main_v20 (F := Ideal) x0 x1 x2 x4 x5 x6) (funext fun ax => Fin.ext (by
    match ax with
    | ⟨0, _⟩ => rfl
    | ⟨1, _⟩ => rfl))

/-- The output gate's column group: columns `1536 + u` of the preactivation. -/
theorem v24_entry (x0 : Mat 128 512) (x1 : Mat 128 1024) (x2 : Mat 1024 512) (x4 x5 : Mat 512 2048) (x6 : Row 2048) (b : Fin 128) (u : Fin 512) :
    val_main_v24 (F := Ideal) x0 x1 x2 x4 x5 x6 (ix2 b u) = preact x0 x1 x2 x4 x5 x6 b (gateCol 1536 (by norm_num) u) := by
  rw [val_main_v24_apply]
  refine Eq.trans ?_ (preact_entry x0 x1 x2 x4 x5 x6 b _)
  exact congrArg (val_main_v20 (F := Ideal) x0 x1 x2 x4 x5 x6) (funext fun ax => Fin.ext (by
    match ax with
    | ⟨0, _⟩ => rfl
    | ⟨1, _⟩ => rfl))

/-- The logistic function as the program spells it, with the word of the real number one for both ones. -/
theorem logistic_spelt (z : EReal) :
    Ideal.div (Ideal.ofBits .f32 0x3F800000#32) (Ideal.ofBits .f32 0x3F800000#32 + Ideal.exp (-z)) = Ideal.logistic z := by
  rw [MeanScale.ofBits_one_f32]
  rfl

/-- The input gate: the logistic function of its preactivation, spelt `1 / (1 + exp (−z))`. -/
theorem v30_entry (x0 : Mat 128 512) (x1 : Mat 128 1024) (x2 : Mat 1024 512) (x4 x5 : Mat 512 2048) (x6 : Row 2048) (b : Fin 128) (u : Fin 512) :
    val_main_v30 (F := Ideal) x0 x1 x2 x4 x5 x6 (ix2 b u) = Ideal.logistic (preact x0 x1 x2 x4 x5 x6 b (gateCol 0 (by norm_num) u)) := by
  rw [val_main_v30_apply, val_main_v29_apply, val_main_cst_4_apply, val_main_v28_apply, val_main_v27_apply,
    val_main_cst_3_apply, val_main_v26_apply, val_main_v25_apply, v21_entry]
  exact logistic_spelt _

/-- The forget gate: the logistic function of its preactivation, spelt `1 / (1 + exp (−z))`. -/
theorem v36_entry (x0 : Mat 128 512) (x1 : Mat 128 1024) (x2 : Mat 1024 512) (x4 x5 : Mat 512 2048) (x6 : Row 2048) (b : Fin 128) (u : Fin 512) :
    val_main_v36 (F := Ideal) x0 x1 x2 x4 x5 x6 (ix2 b u) = Ideal.logistic (preact x0 x1 x2 x4 x5 x6 b (gateCol 512 (by norm_num) u)) := by
  rw [val_main_v36_apply, val_main_v35_apply, val_main_cst_6_apply, val_main_v34_apply, val_main_v33_apply,
    val_main_cst_5_apply, val_main_v32_apply, val_main_v31_apply, v22_entry]
  exact logistic_spelt _

/-- The output gate: the logistic function of its preactivation, spelt `1 / (1 + exp (−z))`. -/
theorem v43_entry (x0 : Mat 128 512) (x1 : Mat 128 1024) (x2 : Mat 1024 512) (x4 x5 : Mat 512 2048) (x6 : Row 2048) (b : Fin 128) (u : Fin 512) :
    val_main_v43 (F := Ideal) x0 x1 x2 x4 x5 x6 (ix2 b u) = Ideal.logistic (preact x0 x1 x2 x4 x5 x6 b (gateCol 1536 (by norm_num) u)) := by
  rw [val_main_v43_apply, val_main_v42_apply, val_main_cst_8_apply, val_main_v41_apply, val_main_v40_apply,
    val_main_cst_7_apply, val_main_v39_apply, val_main_v38_apply, v24_entry]
  exact logistic_spelt _

/-- **The new cell state.** -/
theorem cell_entry (x0 : Mat 128 512) (x1 : Mat 128 1024) (x2 x3 : Mat 1024 512) (x4 x5 : Mat 512 2048) (x6 : Row 2048) (b : Fin 128) (u : Fin 512) :
    val_main_v46 (F := Ideal) x0 x1 x2 x3 x4 x5 x6 (ix2 b u) = cell x0 x1 x2 x3 x4 x5 x6 b u := by
  rw [val_main_v46_apply, val_main_v44_apply, val_main_v45_apply, v36_entry, gathered_cell_entry, v30_entry,
    val_main_v37_apply, v23_entry]
  rfl

/-- **The new hidden state.** -/
theorem hidden_entry (x0 : Mat 128 512) (x1 : Mat 128 1024) (x2 x3 : Mat 1024 512) (x4 x5 : Mat 512 2048) (x6 : Row 2048) (b : Fin 128) (u : Fin 512) :
    val_main_v48 (F := Ideal) x0 x1 x2 x3 x4 x5 x6 (ix2 b u) = hidden x0 x1 x2 x3 x4 x5 x6 b u := by
  rw [val_main_v48_apply, v43_entry, val_main_v47_apply, cell_entry]
  rfl

end Cert.ClassLstm.Ref

end
-- ==== Proof.RefTail.lean ====
/-
  The reference's class-state update read at an entry.

  The reference forms, for every class `n`, row `b` and unit `u`, the blend
  `A[n, u] · (1 − w[b, n]) + B[b, u] · w[b, n]` of the old class state `A` with the row's new state `B` by the row's
  weight `w` for the class, as a `[1024, 128, 512]` array built from broadcasts of `A`, of `B` and of the transposed
  weights, and keeps the largest blend over the rows: a maximum over the middle axis from `−∞`. Read at `(n, u)` that is
  the fold of `max` from `⊥` over the rows of the blend, which is the convex spelling of the update. The hidden states
  and the cell states are updated the same way.
-/
import proofs.«108384_j23502061044385_2_alg».proof.Proof.Spec
import proofs.«108384_j23502061044385_2_alg».proof.Proof.Gen.ReferenceIdeal.Read
import proofs.«108384_j23502061044385_2_alg».proof.Proof.LibColumnLayout
import proofs.«108384_j23502061044385_2_alg».proof.Proof.LibMeanScale

noncomputable section

namespace Cert.ClassLstm.Ref

open Cert.ClassLstm Cert.ReferenceIdeal Cert.ReferenceIdeal.Read Idealize.ShloMosaic Idealize.ShloMosaic.ValueIdx

/-- The reduced index `(i, k)` of a rank-3 array with the middle coordinate `j` put back is `(i, j, k)`. -/
theorem lift_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- A maximum over the middle axis of an `[a, b, c]` array from the `−∞` word, read at `(i, k)` at the extended reals:
    the fold of `max` from `⊥` over the middle coordinate. -/
theorem reduceMax_mid {a b c : ℕ} {u : Shape} (x : (⟨3, ![a, b, c]⟩ : Shape).Idx → EReal) (init : u.Idx → EReal)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel)
    (hinit : init (Shape.Idx.first hu) = ⊥) (i : Fin a) (k : Fin c) :
    Host.reduce (FloatOps.maximumf (F := Ideal) (φ := .f32)) x init h' hu (ix2 i k)
      = (Finset.univ : Finset (Fin b)).fold max ⊥ (fun j => x (ix3 i j k)) := by
  refine (Host.reduce_eq_fold_single (FloatOps.maximumf (F := Ideal) (φ := .f32)) x init h' h hu (ix2 i k)).trans ?_
  rw [hinit]
  exact congrArg (fun f => (Finset.univ : Finset (Fin b)).fold max ⊥ f) (funext fun j => congrArg x (lift_mid h i k j))

/-- The hidden-state blend at class `n`, row `b`, unit `u`. -/
theorem blendHidden_entry (x0 : Mat 128 512) (x1 : Mat 128 1024) (x2 x3 : Mat 1024 512) (x4 x5 : Mat 512 2048) (x6 : Row 2048)
    (n : Fin 1024) (b : Fin 128) (u : Fin 512) :
    val_main_v61 (F := Ideal) x0 x1 x2 x3 x4 x5 x6 (ix3 n b u)
      = x2 (ix2 n u) * (1 - val_main_v12 (F := Ideal) x1 (ix2 b n))
        + val_main_v48 (F := Ideal) x0 x1 x2 x3 x4 x5 x6 (ix2 b u) * val_main_v12 (F := Ideal) x1 (ix2 b n) := by
  have eA : idx_main_v51 (idx_main_v54 (ix3 n b u)) = ix2 n u :=
    funext fun a => Fin.ext (by match a with | ⟨0, _⟩ => rfl | ⟨1, _⟩ => rfl)
  have eW : idx_main_v49 (idx_main_v50 (idx_main_v55 (ix3 n b u))) = ix2 b n :=
    funext fun a => Fin.ext (by match a with | ⟨0, _⟩ => rfl | ⟨1, _⟩ => rfl)
  have eB : idx_main_v57 (idx_main_v58 (ix3 n b u)) = ix2 b u :=
    funext fun a => Fin.ext (by match a with | ⟨0, _⟩ => rfl | ⟨1, _⟩ => rfl)
  have eW' : idx_main_v49 (idx_main_v50 (idx_main_v59 (ix3 n b u))) = ix2 b n :=
    funext fun a => Fin.ext (by match a with | ⟨0, _⟩ => rfl | ⟨1, _⟩ => rfl)
  rw [val_main_v61_apply, val_main_v56_apply, val_main_v60_apply, val_main_v54_apply, val_main_v51_apply, eA,
    val_main_v55_apply, val_main_v53_apply, val_main_v52_apply, val_main_cst_9_apply, val_main_v50_apply,
    val_main_v49_apply, eW, val_main_v58_apply, val_main_v57_apply, eB, val_main_v59_apply, val_main_v50_apply,
    val_main_v49_apply, eW']
  generalize val_main_v48 (F := Ideal) x0 x1 x2 x3 x4 x5 x6 (ix2 b u) = vB
  generalize val_main_v12 (F := Ideal) x1 (ix2 b n) = vW
  simp only [Ideal.mulf_def, Ideal.addf_def, Ideal.subf_def, Ideal.ofBits_def, MeanScale.ofBits_one_f32]

/-- The new class hidden state at `(n, u)`: the largest blend over the rows. -/
theorem newHidden_entry (x0 : Mat 128 512) (x1 : Mat 128 1024) (x2 x3 : Mat 1024 512) (x4 x5 : Mat 512 2048) (x6 : Row 2048)
    (n : Fin 1024) (u : Fin 512) :
    val_main_v62 (F := Ideal) x0 x1 x2 x3 x4 x5 x6 (ix2 n u)
      = blendMix x2 (fun b u' => val_main_v48 (F := Ideal) x0 x1 x2 x3 x4 x5 x6 (ix2 b u'))
          (fun b n' => val_main_v12 (F := Ideal) x1 (ix2 b n')) n u := by
  unfold val_main_v62 blendMix
  refine (reduceMax_mid _ _ _ (by decide) _ ?_ n u).trans ?_
  · rw [val_main_cst_10_apply, Ideal.ofBits_def, ColumnLayout.ofBits_neg_inf_f32]
  · exact congrArg (fun f => (Finset.univ : Finset (Fin 128)).fold max ⊥ f)
      (funext fun b => blendHidden_entry x0 x1 x2 x3 x4 x5 x6 n b u)

/-- The cell-state blend at class `n`, row `b`, unit `u`. -/
theorem blendCell_entry (x0 : Mat 128 512) (x1 : Mat 128 1024) (x2 x3 : Mat 1024 512) (x4 x5 : Mat 512 2048) (x6 : Row 2048)
    (n : Fin 1024) (b : Fin 128) (u : Fin 512) :
    val_main_v75 (F := Ideal) x0 x1 x2 x3 x4 x5 x6 (ix3 n b u)
      = x3 (ix2 n u) * (1 - val_main_v12 (F := Ideal) x1 (ix2 b n))
        + val_main_v46 (F := Ideal) x0 x1 x2 x3 x4 x5 x6 (ix2 b u) * val_main_v12 (F := Ideal) x1 (ix2 b n) := by
  have eA : idx_main_v65 (idx_main_v68 (ix3 n b u)) = ix2 n u :=
    funext fun a => Fin.ext (by match a with | ⟨0, _⟩ => rfl | ⟨1, _⟩ => rfl)
  have eW : idx_main_v63 (idx_main_v64 (idx_main_v69 (ix3 n b u))) = ix2 b n :=
    funext fun a => Fin.ext (by match a with | ⟨0, _⟩ => rfl | ⟨1, _⟩ => rfl)
  have eB : idx_main_v71 (idx_main_v72 (ix3 n b u)) = ix2 b u :=
    funext fun a => Fin.ext (by match a with | ⟨0, _⟩ => rfl | ⟨1, _⟩ => rfl)
  have eW' : idx_main_v63 (idx_main_v64 (idx_main_v73 (ix3 n b u))) = ix2 b n :=
    funext fun a => Fin.ext (by match a with | ⟨0, _⟩ => rfl | ⟨1, _⟩ => rfl)
  rw [val_main_v75_apply, val_main_v70_apply, val_main_v74_apply, val_main_v68_apply, val_main_v65_apply, eA,
    val_main_v69_apply, val_main_v67_apply, val_main_v66_apply, val_main_cst_11_apply, val_main_v64_apply,
    val_main_v63_apply, eW, val_main_v72_apply, val_main_v71_apply, eB, val_main_v73_apply, val_main_v64_apply,
    val_main_v63_apply, eW']
  generalize val_main_v46 (F := Ideal) x0 x1 x2 x3 x4 x5 x6 (ix2 b u) = vB
  generalize val_main_v12 (F := Ideal) x1 (ix2 b n) = vW
  simp only [Ideal.mulf_def, Ideal.addf_def, Ideal.subf_def, Ideal.ofBits_def, MeanScale.ofBits_one_f32]

/-- The new class cell state at `(n, u)`: the largest blend over the rows. -/
theorem newCell_entry (x0 : Mat 128 512) (x1 : Mat 128 1024) (x2 x3 : Mat 1024 512) (x4 x5 : Mat 512 2048) (x6 : Row 2048)
    (n : Fin 1024) (u : Fin 512) :
    val_main_v76 (F := Ideal) x0 x1 x2 x3 x4 x5 x6 (ix2 n u)
      = blendMix x3 (fun b u' => val_main_v46 (F := Ideal) x0 x1 x2 x3 x4 x5 x6 (ix2 b u'))
          (fun b n' => val_main_v12 (F := Ideal) x1 (ix2 b n')) n u := by
  unfold val_main_v76 blendMix
  refine (reduceMax_mid _ _ _ (by decide) _ ?_ n u).trans ?_
  · rw [val_main_cst_12_apply, Ideal.ofBits_def, ColumnLayout.ofBits_neg_inf_f32]
  · exact congrArg (fun f => (Finset.univ : Finset (Fin 128)).fold max ⊥ f)
      (funext fun b => blendCell_entry x0 x1 x2 x3 x4 x5 x6 n b u)

end Cert.ClassLstm.Ref

end
-- ==== Proof.RefSpec.lean ====
/-
  The reference program's three results in the closed form of the specification.

  The new hidden and cell states of the rows are the specification's `hidden` and `cell` (the first half of the program,
  read at an entry). Each class state is the largest, over the rows, of the convex blend of the old state with the row's
  new state by the row's softmax weight. Where every input is a real number, the old states, the new states and the
  weights are all real, and the convex blend `A·(1 − w) + B·w` maximised over the rows equals the old state plus the
  largest `w·(B − A)`: the additive form.
-/
import proofs.«108384_j23502061044385_2_alg».proof.Proof.Spec
import proofs.«108384_j23502061044385_2_alg».proof.Proof.RefPrefix
import proofs.«108384_j23502061044385_2_alg».proof.Proof.RefTail
import proofs.«108384_j23502061044385_2_alg».proof.Proof.Laws

noncomputable section

namespace Cert.ClassLstm.Ref

open Cert.ClassLstm Cert.ReferenceIdeal Cert.ReferenceIdeal.Read Idealize.ShloMosaic Idealize.ShloMosaic.ValueIdx

/-- The rows' new hidden states, as a function of row and unit, are the specification's. -/
theorem hidden_fun (x0 : Mat 128 512) (x1 : Mat 128 1024) (x2 x3 : Mat 1024 512) (x4 x5 : Mat 512 2048)
    (x6 : Row 2048) :
    (fun (b : Fin 128) (u' : Fin 512) => val_main_v48 (F := Ideal) x0 x1 x2 x3 x4 x5 x6 (ix2 b u'))
      = fun b u' => hidden x0 x1 x2 x3 x4 x5 x6 b u' :=
  funext fun b => funext fun u' => hidden_entry x0 x1 x2 x3 x4 x5 x6 b u'

/-- The rows' new cell states, as a function of row and unit, are the specification's. -/
theorem cell_fun (x0 : Mat 128 512) (x1 : Mat 128 1024) (x2 x3 : Mat 1024 512) (x4 x5 : Mat 512 2048)
    (x6 : Row 2048) :
    (fun (b : Fin 128) (u' : Fin 512) => val_main_v46 (F := Ideal) x0 x1 x2 x3 x4 x5 x6 (ix2 b u'))
      = fun b u' => cell x0 x1 x2 x3 x4 x5 x6 b u' :=
  funext fun b => funext fun u' => cell_entry x0 x1 x2 x3 x4 x5 x6 b u'

/-- The softmax weights, as a function of row and class, are the specification's. -/
theorem weight_fun (x1 : Mat 128 1024) :
    (fun (b : Fin 128) (n' : Fin 1024) => val_main_v12 (F := Ideal) x1 (ix2 b n')) = fun b n' => weight x1 b n' :=
  funext fun b => funext fun n' => weight_entry x1 b n'

/-- **The updated class hidden states**, in the additive form, where every input is real. -/
theorem ref_newHidden (x0 : Mat 128 512) (x1 : Mat 128 1024) (x2 x3 : Mat 1024 512) (x4 x5 : Mat 512 2048)
    (x6 : Row 2048)
    (h0 : AllReal x0) (h1 : AllReal x1) (h2 : AllReal x2) (h3 : AllReal x3) (h4 : AllReal x4) (h5 : AllReal x5)
    (h6 : AllReal x6) (n : Fin 1024) (u : Fin 512) :
    val_main_v62 (F := Ideal) x0 x1 x2 x3 x4 x5 x6 (ix2 n u)
      = blendAdd x2 (fun b u' => hidden x0 x1 x2 x3 x4 x5 x6 b u') (fun b n' => weight x1 b n') n u := by
  refine (newHidden_entry x0 x1 x2 x3 x4 x5 x6 n u).trans ?_
  refine (congrArg₂ (fun B w => blendMix x2 B w n u) (hidden_fun x0 x1 x2 x3 x4 x5 x6) (weight_fun x1)).trans ?_
  exact blend_eq x2 _ _ h2 (fun b u' => hidden_real x0 x1 x2 x3 x4 x5 x6 h0 h1 h2 h3 h4 h5 h6 b u')
    (fun b n' => weight_real x1 h1 b n') n u

/-- **The updated class cell states**, in the additive form, where every input is real. -/
theorem ref_newCell (x0 : Mat 128 512) (x1 : Mat 128 1024) (x2 x3 : Mat 1024 512) (x4 x5 : Mat 512 2048)
    (x6 : Row 2048)
    (h0 : AllReal x0) (h1 : AllReal x1) (h2 : AllReal x2) (h3 : AllReal x3) (h4 : AllReal x4) (h5 : AllReal x5)
    (h6 : AllReal x6) (n : Fin 1024) (u : Fin 512) :
    val_main_v76 (F := Ideal) x0 x1 x2 x3 x4 x5 x6 (ix2 n u)
      = blendAdd x3 (fun b u' => cell x0 x1 x2 x3 x4 x5 x6 b u') (fun b n' => weight x1 b n') n u := by
  refine (newCell_entry x0 x1 x2 x3 x4 x5 x6 n u).trans ?_
  refine (congrArg₂ (fun B w => blendMix x3 B w n u) (cell_fun x0 x1 x2 x3 x4 x5 x6) (weight_fun x1)).trans ?_
  exact blend_eq x3 _ _ h3 (fun b u' => cell_real x0 x1 x2 x3 x4 x5 x6 h0 h1 h2 h3 h4 h5 h6 b u')
    (fun b n' => weight_real x1 h1 b n') n u

end Cert.ClassLstm.Ref

end
-- ==== Proof.Finite.lean ====
/-
  The precondition read back: every entry of every input array is a real number.

  The printed predicate tests each of the seven arrays by "every |x| is below +∞" — the absolute value, a comparison with
  the splat of the +∞ word, and an "and" over all entries from 1 — and joins the seven tests by "and". An "and" that is 1
  has both sides 1; an all-test that is 1 has every compared entry 1; and |x| < ⊤ on the extended reals, where
  |x| = max x (−x), leaves x neither ⊤ nor ⊥ (both have |x| = ⊤), so x is a real number.
-/
import proofs.«108384_j23502061044385_2_alg».proof.Proof.Spec
import proofs.«108384_j23502061044385_2_alg».proof.Defs
import Idealize.ShloMosaic.Lib.ReduceAll
import Idealize.ShloMosaic.Lib.ValueIdx

noncomputable section

namespace Cert.ClassLstm

open Idealize.ShloMosaic Idealize.SL.Sem

/-- A rank-0 array has one index. -/
instance subsingleton_idx0 : Subsingleton (⟨0, ![]⟩ : Shape).Idx := ⟨fun a b => funext fun d => d.elim0⟩

/-- The binary32 word of `+∞` is the greatest extended real. -/
theorem ofBits_pos_inf_f32 : Ideal.ofBits .f32 0x7F800000#32 = ⊤ := by simp [Ideal.ofBits, Ideal.ieee]

/-- An extended real whose absolute value `max x (−x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The all-test of one array, as printed, being 1 says every entry is a real number. -/
theorem allReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1) :
    AllReal x := by
  intro i
  have hi := Host.reduce_andi_all _ _ hr hu ValueIdx.ix0 e i
  have hi' : Ideal.cmp .olt (max (x i) (-(x i))) (Ideal.ofBits .f32 0x7F800000#32) = 1#1 := hi
  rw [ofBits_pos_inf_f32] at hi'
  refine real_of_abs_lt_top (x i) ?_
  by_contra hn
  simp [Ideal.cmp, hn] at hi'

/-- Under the precondition every entry of each of the seven input arrays is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : Mat 128 512)
    ∧ AllReal (m ((c.tc : Thread Cert.KernelIdeal.nD Cert.KernelIdeal.τ).loc Cert.KernelIdeal.main_arg1) : Mat 128 1024)
    ∧ AllReal (m ((c.tc : Thread Cert.KernelIdeal.nD Cert.KernelIdeal.τ).loc Cert.KernelIdeal.main_arg2) : Mat 1024 512)
    ∧ AllReal (m ((c.tc : Thread Cert.KernelIdeal.nD Cert.KernelIdeal.τ).loc Cert.KernelIdeal.main_arg3) : Mat 1024 512)
    ∧ AllReal (m ((c.tc : Thread Cert.KernelIdeal.nD Cert.KernelIdeal.τ).loc Cert.KernelIdeal.main_arg4) : Mat 512 2048)
    ∧ AllReal (m ((c.tc : Thread Cert.KernelIdeal.nD Cert.KernelIdeal.τ).loc Cert.KernelIdeal.main_arg5) : Mat 512 2048)
    ∧ AllReal (m ((c.tc : Thread Cert.KernelIdeal.nD Cert.KernelIdeal.τ).loc Cert.KernelIdeal.main_arg6) : Row 2048) := by
  have e := congrFun (h c) ValueIdx.ix0
  dsimp only [Cert.Pre_finite_inputs.fn, Cert.Pre_finite_inputs.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_all _ _ _ _ e0, allReal_of_all _ _ _ _ e1, allReal_of_all _ _ _ _ e2, allReal_of_all _ _ _ _ e3,
    allReal_of_all _ _ _ _ e4, allReal_of_all _ _ _ _ e5, allReal_of_all _ _ _ _ e6⟩

end Cert.ClassLstm

end
-- ==== Proof.lean ====
/-
  The certificate's five claims.

  Both programs compute, on the extended reals: softmax weights of the scaled logits (row by row); a hidden and a cell
  state per row gathered from the per-class states by those weights; one LSTM step, giving each row a new cell state
  `σ(f)·c₀ + σ(i)·tanh(g)` and a new hidden state `σ(o)·tanh(c)`; and then every class state updated to the largest, over the
  128 rows, of its blend with that row's new state by that row's weight for the class. The first result (the new hidden row
  states) is the same expression in both programs, operation by operation: a matrix unit's product into a zero accumulator
  is the host's product, a lane sum is the host's sum, a change of float format is the identity, and the logistic function
  is `1/(1+e⁻ˣ)` however it is spelt. The other two results differ in the spelling of the blend: the reference takes
  `max_b (A·(1 − w_b) + B_b·w_b)`, the kernel `A + max_b (w_b·(B_b − A))`, in four chunks of 32 rows. These agree when `A`,
  `B_b`, `w_b` are real numbers — distributivity, and moving the constant `A` out of a maximum over a nonempty set — and
  they are: the inputs are finite by the precondition, a softmax weight is a quotient of a positive real by a positive
  real, and sums, products, `tanh` and the logistic function of reals are real.

  The three frame claims are the generated frames (the reference's is its generated run with the results dropped); the
  idealization rewrote nothing, so the fourth claim is trivial; the fifth is assembled below from the kernel program's
  run with its results in closed form, the reference's run read stage by stage, and the law above.
-/
import proofs.«108384_j23502061044385_2_alg».proof.Defs
import proofs.«108384_j23502061044385_2_alg».proof.Proof.Gen.Kernel
import proofs.«108384_j23502061044385_2_alg».proof.Proof.Gen.Kernel.Frame
import proofs.«108384_j23502061044385_2_alg».proof.Proof.Gen.KernelIdeal
import proofs.«108384_j23502061044385_2_alg».proof.Proof.Gen.KernelIdeal.Frame
import proofs.«108384_j23502061044385_2_alg».proof.Proof.Gen.ReferenceIdeal
import proofs.«108384_j23502061044385_2_alg».proof.Proof.Gen.Pre_finite_inputs
import proofs.«108384_j23502061044385_2_alg».proof.Proof.RefRead
import proofs.«108384_j23502061044385_2_alg».proof.Proof.KernSpec
import proofs.«108384_j23502061044385_2_alg».proof.Proof.RefSpec
import proofs.«108384_j23502061044385_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem Cert.ClassLstm

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The two idealized programs, from memories agreeing on the arguments, end with equal results: the kernel program's
    results are the witnesses, and the reference's stage-by-stage reading meets their closed forms. -/
theorem algebraic : Cert.algebraic_KernelIdeal_ReferenceIdeal := by
  intro m ρ m' ρ' hpre hagree
  refine ⟨fun c => Cert.KernelIdeal.Gen.W3 m ρ c (Proc.devRef .tc Cert.KernelIdeal.main_v6_0),
    fun c => Cert.KernelIdeal.Gen.W3 m ρ c (Proc.devRef .tc Cert.KernelIdeal.main_v7_0),
    fun c => Cert.KernelIdeal.Gen.W3 m ρ c (Proc.devRef .tc Cert.KernelIdeal.main_v7_1),
    Cert.KernelIdeal.Run.run_named m ρ, ?_⟩
  refine (θ_run Cert.ReferenceIdeal.defs _ _).mono (fun r h c => ?_) (Cert.ReferenceIdeal.Value.run (F := Ideal) m' ρ')
  obtain ⟨h0, h1, h2, hrest⟩ := h c
  obtain ⟨e0, e1, e2, e3, e4, e5, e6⟩ := hagree c
  obtain ⟨r0, r1, r2, r3, r4, r5, r6⟩ := real_of_pre m hpre c
  refine ⟨h0.trans ?_, h1.trans ?_, h2.trans ?_, hrest⟩
  · rw [Cert.ReferenceIdeal.Read.val_main_v48_eq, e0, e1, e2, e3, e4, e5, e6]
    funext i
    obtain ⟨b, u, rfl⟩ : ∃ (b : Fin 128) (u : Fin 512), i = ix2 b u := ⟨i 0, i 1, eq_ix2 i⟩
    rw [Ref.hidden_entry]
    exact (Cert.KernelIdeal.Closed.result_hidden m ρ c b u).symm
  · rw [Cert.ReferenceIdeal.Read.val_main_v62_eq, e0, e1, e2, e3, e4, e5, e6]
    funext i
    obtain ⟨n, u, rfl⟩ : ∃ (n : Fin 1024) (u : Fin 512), i = ix2 n u := ⟨i 0, i 1, eq_ix2 i⟩
    rw [Ref.ref_newHidden _ _ _ _ _ _ _ r0 r1 r2 r3 r4 r5 r6 n u]
    exact (Cert.KernelIdeal.Closed.result_newHidden m ρ c n u).symm
  · rw [Cert.ReferenceIdeal.Read.val_main_v76_eq, e0, e1, e2, e3, e4, e5, e6]
    funext i
    obtain ⟨n, u, rfl⟩ : ∃ (n : Fin 1024) (u : Fin 512), i = ix2 n u := ⟨i 0, i 1, eq_ix2 i⟩
    rw [Ref.ref_newCell _ _ _ _ _ _ _ r0 r1 r2 r3 r4 r5 r6 n u]
    exact (Cert.KernelIdeal.Closed.result_newCell m ρ c n u).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
